-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S128x256 : Shape := ⟨2, ![128, 256]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S128x256 .f32) (main_arg3 : FVec F S128 .f32) (main_arg4 : FVec F S64x128 .f32) (main_arg5 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S128x256 : Shape := ⟨2, ![128, 256]⟩
abbrev S128 : Shape := ⟨1, ![128]⟩
abbrev S64x128 : Shape := ⟨2, ![64, 128]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S1x128 : Shape := ⟨2, ![1, 128]⟩
abbrev S1x64 : Shape := ⟨2, ![1, 64]⟩
abbrev S50000x128 : Shape := ⟨2, ![50000, 128]⟩
abbrev S2000x256 : Shape := ⟨2, ![2000, 256]⟩
abbrev S2000x1 : Shape := ⟨2, ![2000, 1]⟩
abbrev S2000x128 : Shape := ⟨2, ![2000, 128]⟩
abbrev S850000x128 : Shape := ⟨2, ![850000, 128]⟩
abbrev S50000x64 : Shape := ⟨2, ![50000, 64]⟩
abbrev S2000x64 : Shape := ⟨2, ![2000, 64]⟩
abbrev S850000x64 : Shape := ⟨2, ![850000, 64]⟩
abbrev S2000 : Shape := ⟨1, ![2000]⟩

abbrev nBuf : Space → Nat
  | .hbm => 63
  | .vmem => 22
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S128x256, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S50000, .f32⟩
  | .hbm, ⟨15, _⟩ => ⟨S_, .i32⟩
  | .hbm, ⟨16, _⟩ => ⟨S850000, .i32⟩
  | .hbm, ⟨17, _⟩ => ⟨S850000, .i1⟩
  | .hbm, ⟨18, _⟩ => ⟨S_, .i32⟩
  | .hbm, ⟨19, _⟩ => ⟨S850000, .i32⟩
  | .hbm, ⟨20, _⟩ => ⟨S850000, .i32⟩
  | .hbm, ⟨21, _⟩ => ⟨S850000, .i32⟩
  | .hbm, ⟨22, _⟩ => ⟨S850000x1, .i32⟩
  | .hbm, ⟨23, _⟩ => ⟨S_, .f32⟩
  | .hbm, ⟨24, _⟩ => ⟨S850000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S1x128, .f32⟩
  | .hbm, ⟨31, _⟩ => ⟨S1x64, .f32⟩
  | .hbm, ⟨32, _⟩ => ⟨S50000x128, .bf16⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000x128, .bf16⟩
  | .hbm, ⟨42, _⟩ => ⟨S850000x128, .f32⟩
  | .hbm, ⟨43, _⟩ => ⟨S_, .f32⟩
  | .hbm, ⟨44, _⟩ => ⟨S50000x128, .f32⟩
  | .hbm, ⟨45, _⟩ => ⟨S850000x1, .i32⟩
  | .hbm, ⟨46, _⟩ => ⟨S50000x128, .f32⟩
  | .hbm, ⟨47, _⟩ => ⟨S50000x64, .bf16⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x64, .bf16⟩
  | .hbm, ⟨57, _⟩ => ⟨S850000x64, .f32⟩
  | .hbm, ⟨58, _⟩ => ⟨S_, .f32⟩
  | .hbm, ⟨59, _⟩ => ⟨S50000x64, .f32⟩
  | .hbm, ⟨60, _⟩ => ⟨S850000x1, .i32⟩
  | .hbm, ⟨61, _⟩ => ⟨S50000x64, .f32⟩
  | .hbm, ⟨62, _⟩ => ⟨S50000x64, .f32⟩
  | .local _ .vmem, ⟨0, _⟩ => ⟨S2000x256, .f32⟩
  | .local _ .vmem, ⟨1, _⟩ => ⟨S2000x256, .f32⟩
  | .local _ .vmem, ⟨2, _⟩ => ⟨S128x256, .f32⟩
  | .local _ .vmem, ⟨3, _⟩ => ⟨S1x128, .f32⟩
  | .local _ .vmem, ⟨4, _⟩ => ⟨S2000x1, .f32⟩
  | .local _ .vmem, ⟨5, _⟩ => ⟨S2000x1, .f32⟩
  | .local _ .vmem, ⟨6, _⟩ => ⟨S2000x128, .bf16⟩
  | .local _ .vmem, ⟨7, _⟩ => ⟨S2000x128, .bf16⟩
  | .local _ .vmem, ⟨8, _⟩ => ⟨S2000x128, .f32⟩
  | .local _ .vmem, ⟨9, _⟩ => ⟨S2000x128, .f32⟩
  | .local _ .vmem, ⟨10, _⟩ => ⟨S64x128, .f32⟩
  | .local _ .vmem, ⟨11, _⟩ => ⟨S1x64, .f32⟩
  | .local _ .vmem, ⟨12, _⟩ => ⟨S2000x1, .f32⟩
  | .local _ .vmem, ⟨13, _⟩ => ⟨S2000x1, .f32⟩
  | .local _ .vmem, ⟨14, _⟩ => ⟨S2000x64, .bf16⟩
  | .local _ .vmem, ⟨15, _⟩ => ⟨S2000x64, .bf16⟩
  | .local _ .vmem, ⟨16, _⟩ => ⟨S2000x64, .f32⟩
  | .local _ .vmem, ⟨17, _⟩ => ⟨S2000x64, .f32⟩
  | .local _ .vmem, ⟨18, _⟩ => ⟨S2000x1, .f32⟩
  | .local _ .vmem, ⟨19, _⟩ => ⟨S2000x1, .f32⟩
  | .local _ .vmem, ⟨20, _⟩ => ⟨S2000x64, .f32⟩
  | .local _ .vmem, ⟨21, _⟩ => ⟨S2000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  shapeCasts_S50000_S50000x1 : S50000.ShapeCasts S50000x1
  shapeCasts_S128_S1x128 : S128.ShapeCasts S1x128
  shapeCasts_S64_S1x64 : S64.ShapeCasts S1x64
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S2000x128_S2000x128 : S2000x128.ShapeCasts S2000x128
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  bcast_S_S50000x64 : S_.BroadcastsInDim S50000x64 (![] : Fin 0 → Fin S50000x64.rank)
  shapeCasts_S2000x64_S2000x64 : S2000x64.ShapeCasts S2000x64
  reduces_S2000x64_S2000 : S2000x64.Reduces [1] S2000
  shapeCasts_S2000_S2000x1 : S2000.ShapeCasts S2000x1
  scatter_S50000_S850000x1_S850000_n_0_0_1_wf : ScatterDims.WF S50000 S850000x1 S850000 [] [0] [0] 1
  dot_S2000x256_S128x256_S2000x128_1_1_0_0_n_n_wf : DotDims.WF S2000x256 S128x256 S2000x128 [1] [1] [0] [0] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S64x128_S2000x64_1_1_0_0_n_n_wf : DotDims.WF S2000x128 S64x128 S2000x64 [1] [1] [0] [0] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S50000x1.size a
  hwx0_3 : ∀ i : grid0.Coords, EltTy.bits .f32 = 32 ∨ (Rect.block (s := S50000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .bf16 = 32 ∨ (Rect.block (s := S50000x128) S2000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S50000x64.size a
  hwx1_4 : ∀ i : grid1.Coords, EltTy.bits .bf16 = 32 ∨ (Rect.block (s := S50000x64) S2000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x256_S128x256_S2000x128_1_1_0_0_n_n : DotDims S2000x256 S128x256 S2000x128 where
  lhsContracting := [1]
  rhsContracting := [1]
  lhsNonContracting := [0]
  rhsNonContracting := [0]
  lhsBatch := []
  rhsBatch := []
  wf := dot_S2000x256_S128x256_S2000x128_1_1_0_0_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S64x128_S2000x64_1_1_0_0_n_n : DotDims S2000x128 S64x128 S2000x64 where
  lhsContracting := [1]
  rhsContracting := [1]
  lhsNonContracting := [0]
  rhsNonContracting := [0]
  lhsBatch := []
  rhsBatch := []
  wf := dot_S2000x128_S64x128_S2000x64_1_1_0_0_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v32) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v33) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S128x256 : Shape := ⟨2, ![128, 256]⟩
abbrev S128 : Shape := ⟨1, ![128]⟩
abbrev S64x128 : Shape := ⟨2, ![64, 128]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S256x128 : Shape := ⟨2, ![256, 128]⟩
abbrev S50000x128 : Shape := ⟨2, ![50000, 128]⟩
abbrev S1x128 : Shape := ⟨2, ![1, 128]⟩
abbrev S850000x128 : Shape := ⟨2, ![850000, 128]⟩
abbrev S128x64 : Shape := ⟨2, ![128, 64]⟩
abbrev S50000x64 : Shape := ⟨2, ![50000, 64]⟩
abbrev S1x64 : Shape := ⟨2, ![1, 64]⟩
abbrev S850000x64 : Shape := ⟨2, ![850000, 64]⟩
abbrev S50000x1 : Shape := ⟨2, ![50000, 1]⟩

abbrev nBuf : Space → Nat
  | .hbm => 108
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S128x256, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S50000, .f32⟩
  | .hbm, ⟨15, _⟩ => ⟨S_, .i32⟩
  | .hbm, ⟨16, _⟩ => ⟨S850000, .i32⟩
  | .hbm, ⟨17, _⟩ => ⟨S850000, .i1⟩
  | .hbm, ⟨18, _⟩ => ⟨S_, .i32⟩
  | .hbm, ⟨19, _⟩ => ⟨S850000, .i32⟩
  | .hbm, ⟨20, _⟩ => ⟨S850000, .i32⟩
  | .hbm, ⟨21, _⟩ => ⟨S850000, .i32⟩
  | .hbm, ⟨22, _⟩ => ⟨S850000x1, .i32⟩
  | .hbm, ⟨23, _⟩ => ⟨S_, .f32⟩
  | .hbm, ⟨24, _⟩ => ⟨S850000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S256x128, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S850000x1, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x128, .f32⟩
  | .hbm, ⟨63, _⟩ => ⟨S850000x128, .f32⟩
  | .hbm, ⟨64, _⟩ => ⟨S850000x128, .f32⟩
  | .hbm, ⟨65, _⟩ => ⟨S_, .f32⟩
  | .hbm, ⟨66, _⟩ => ⟨S50000x128, .f32⟩
  | .hbm, ⟨67, _⟩ => ⟨S850000x1, .i32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S128x64, .f32⟩
  | .hbm, ⟨73, _⟩ => ⟨S50000x64, .f32⟩
  | .hbm, ⟨74, _⟩ => ⟨S1x64, .f32⟩
  | .hbm, ⟨75, _⟩ => ⟨S50000x64, .f32⟩
  | .hbm, ⟨76, _⟩ => ⟨S50000x64, .f32⟩
  | .hbm, ⟨77, _⟩ => ⟨S850000x1, .f32⟩
  | .hbm, ⟨78, _⟩ => ⟨S_, .i32⟩
  | .hbm, ⟨79, _⟩ => ⟨S850000, .i32⟩
  | .hbm, ⟨80, _⟩ => ⟨S850000, .i1⟩
  | .hbm, ⟨81, _⟩ => ⟨S_, .i32⟩
  | .hbm, ⟨82, _⟩ => ⟨S850000, .i32⟩
  | .hbm, ⟨83, _⟩ => ⟨S850000, .i32⟩
  | .hbm, ⟨84, _⟩ => ⟨S850000, .i32⟩
  | .hbm, ⟨85, _⟩ => ⟨S850000x1, .i32⟩
  | .hbm, ⟨86, _⟩ => ⟨S850000x64, .f32⟩
  | .hbm, ⟨87, _⟩ => ⟨S850000x64, .f32⟩
  | .hbm, ⟨88, _⟩ => ⟨S850000x64, .f32⟩
  | .hbm, ⟨89, _⟩ => ⟨S_, .f32⟩
  | .hbm, ⟨90, _⟩ => ⟨S50000x64, .f32⟩
  | .hbm, ⟨91, _⟩ => ⟨S850000x1, .i32⟩
  | .hbm, ⟨92, _⟩ => ⟨S50000x64, .f32⟩
  | .hbm, ⟨93, _⟩ => ⟨S_, .f32⟩
  | .hbm, ⟨94, _⟩ => ⟨S50000, .f32⟩
  | .hbm, ⟨95, _⟩ => ⟨S_, .f32⟩
  | .hbm, ⟨96, _⟩ => ⟨S50000, .f32⟩
  | .hbm, ⟨97, _⟩ => ⟨S50000, .f32⟩
  | .hbm, ⟨98, _⟩ => ⟨S50000x1, .f32⟩
  | .hbm, ⟨99, _⟩ => ⟨S50000x64, .f32⟩
  | .hbm, ⟨100, _⟩ => ⟨S50000x64, .f32⟩
  | .hbm, ⟨101, _⟩ => ⟨S50000x64, .f32⟩
  | .hbm, ⟨102, _⟩ => ⟨S_, .f32⟩
  | .hbm, ⟨103, _⟩ => ⟨S50000, .f32⟩
  | .hbm, ⟨104, _⟩ => ⟨S50000x1, .f32⟩
  | .hbm, ⟨105, _⟩ => ⟨S50000x1, .f32⟩
  | .hbm, ⟨106, _⟩ => ⟨S50000x64, .f32⟩
  | .hbm, ⟨107, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_7 : Ref sig .tc := ⟨.hbm, 54, rfl⟩
abbrev main_v39 : Ref sig .tc := ⟨.hbm, 55, rfl⟩
abbrev main_v40 : Ref sig .tc := ⟨.hbm, 56, rfl⟩
abbrev main_c_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_call0_cst : Ref sig .tc := ⟨.hbm, 69, rfl⟩
abbrev main_call0_v0 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_10 : Ref sig .tc := ⟨.hbm, 78, rfl⟩
abbrev main_v58 : Ref sig .tc := ⟨.hbm, 79, rfl⟩
abbrev main_v59 : Ref sig .tc := ⟨.hbm, 80, rfl⟩
abbrev main_c_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_12 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_call1_cst : Ref sig .tc := ⟨.hbm, 93, rfl⟩
abbrev main_call1_v0 : Ref sig .tc := ⟨.hbm, 94, rfl⟩
abbrev main_call1_cst_0 : Ref sig .tc := ⟨.hbm, 95, rfl⟩
abbrev main_call1_v1 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_call1_v5 : Ref sig .tc := ⟨.hbm, 100, rfl⟩
abbrev main_call1_v6 : Ref sig .tc := ⟨.hbm, 101, rfl⟩
abbrev main_call1_cst_1 : Ref sig .tc := ⟨.hbm, 102, rfl⟩
abbrev main_call1_v7 : Ref sig .tc := ⟨.hbm, 103, rfl⟩
abbrev main_call1_v8 : Ref sig .tc := ⟨.hbm, 104, rfl⟩
abbrev main_call1_v9 : Ref sig .tc := ⟨.hbm, 105, rfl⟩
abbrev main_call1_v10 : Ref sig .tc := ⟨.hbm, 106, rfl⟩
abbrev main_v70 : Ref sig .tc := ⟨.hbm, 107, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The kernel program's run with its result named.

  The program is three tiled regions among stretches of host operations.  The generated frame module walks the contents
  of every buffer through the six segments (W0, the launch memory, … W6, the contents at the return) and proves that
  every weakly fair execution ends with the argument buffers as launched.  The same run, read at one more buffer, also
  says what the result buffer holds at the return: its contents at the last boundary, W6.  What W6 holds there is the
  business of the other modules.
-/
import proofs.«151475_j61306363183616_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents and
    the six argument buffers as launched. -/
theorem run_out : θ_run defs (onTc (τ := τ) (main (F := F))) ⟨m, fun _ => 0, ρ⟩ (fun r => ∀ c : Dev nD,
      r.2.mem ((c.tc : Thread nD τ).loc main_v45) = W6 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v45 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Gen

end
-- ==== Proof.HostTerms.lean ====
/-
  The host operations around the three regions, read at the buffers the regions use.

  Before the first region the program builds, from the edge list: the sources and the targets of all edges with the self
  loops appended ("rowK", "colK"); the sources with negative node numbers wrapped, as a one-column array ("srcK": what
  every gather takes); the targets as a one-column array ("dstK": what every scatter takes); the degree of every node,
  by adding 1.0 at every source; and the node factors, the degree to the power -1/2 ("disK").  It also views the factors
  as one column and the two biases as one row.  Between the regions it gathers the rows of a region's output at the
  sources and adds them up at the targets.  This module names those terms and says what each boundary of the run holds
  at the buffers that matter.
-/
import proofs.«151475_j61306363183616_2_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.Walk

open Cert.KernelIdeal Cert.KernelIdeal.Gen Idealize.ShloMosaic Idealize.ShloMosaic.TcCoe Idealize.ShloMosaic.ValueIdx
open Idealize.ShloMosaic.StableHlo Idealize.SL.Sem

/-- The sources of all edges, the self loops appended. -/
def rowK (a1 : IVec S2x800000 32) : IVec S850000 32 :=
  concatenate S850000 0 [⟨S800000, shapeCast S800000 (extractStridedSlice S1x800000 ![0, 0] a1 slices_S2x800000_S1x800000_0_0) shapeCasts_S1x800000_S800000⟩,
    ⟨S50000, iotaInDim S50000 32 0⟩] concatenates_S800000_S50000_S850000_d0

/-- The targets of all edges, the self loops appended. -/
def colK (a1 : IVec S2x800000 32) : IVec S850000 32 :=
  concatenate S850000 0 [⟨S800000, shapeCast S800000 (extractStridedSlice S1x800000 ![1, 0] a1 slices_S2x800000_S1x800000_1_0) shapeCasts_S1x800000_S800000⟩,
    ⟨S50000, iotaInDim S50000 32 0⟩] concatenates_S800000_S50000_S850000_d0

/-- A negative node number counted from the end. -/
def wrapK (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

/-- The wrapped sources as a one-column array. -/
def srcK (a1 : IVec S2x800000 32) : IVec S850000x1 32 :=
  broadcastInDim S850000x1 ![0] bcast_S850000_S850000x1_0 (wrapK (rowK a1))

/-- The targets as a one-column array. -/
def dstK (a1 : IVec S2x800000 32) : IVec S850000x1 32 :=
  broadcastInDim S850000x1 ![0] bcast_S850000_S850000x1_0 (colK a1)

/-- The node factors: (number of edges leaving the node) to the power -1/2. -/
def disK (a1 : IVec S2x800000 32) : FVec Ideal S50000 .f32 :=
  Host.powf (Host.scatterAdd scatter_S50000_S850000x1_S850000_n_0_0_1
      (broadcastInDim S50000 ![] bcast_S_S50000 (constant (F := Ideal) S_ .f32 0x00000000#32)) (srcK a1)
      (broadcastInDim S850000 ![] bcast_S_S850000 (constant (F := Ideal) S_ .f32 0x3F800000#32)))
    (broadcastInDim S50000 ![] bcast_S_S50000 (constant (F := Ideal) S_ .f32 0xBF000000#32))

section Run
variable (m : (ℓ : Loc nD τ sig) → Buf (Elt Ideal) ℓ) (ρ : Dev nD → PrngReg) (c : Dev nD)

/-! ## The first boundary: after the first stretch of host operations -/

theorem W1_v18 : W1 m ρ c (Proc.devRef .tc main_v18)
    = shapeCast S50000x1 (disK (m ((c.tc : Thread nD τ).loc main_arg1))) shapeCasts_S50000_S50000x1 := by
  show StableHlo.after hostOps0 (W0 m ρ c) (Proc.devRef .tc main_v18) = _
  after_results
  rfl

theorem W1_v19 : W1 m ρ c (Proc.devRef .tc main_v19)
    = shapeCast S1x128 (m ((c.tc : Thread nD τ).loc main_arg3)) shapeCasts_S128_S1x128 := by
  show StableHlo.after hostOps0 (W0 m ρ c) (Proc.devRef .tc main_v19) = _
  after_results
  rfl

theorem W1_v20 : W1 m ρ c (Proc.devRef .tc main_v20)
    = shapeCast S1x64 (m ((c.tc : Thread nD τ).loc main_arg5)) shapeCasts_S64_S1x64 := by
  show StableHlo.after hostOps0 (W0 m ρ c) (Proc.devRef .tc main_v20) = _
  after_results
  rfl

theorem W1_v3 : W1 m ρ c (Proc.devRef .tc main_v3) = rowK (m ((c.tc : Thread nD τ).loc main_arg1)) := by
  show StableHlo.after hostOps0 (W0 m ρ c) (Proc.devRef .tc main_v3) = _
  after_results
  rfl

theorem W1_v6 : W1 m ρ c (Proc.devRef .tc main_v6) = colK (m ((c.tc : Thread nD τ).loc main_arg1)) := by
  show StableHlo.after hostOps0 (W0 m ρ c) (Proc.devRef .tc main_v6) = _
  after_results
  rfl

theorem W1_arg0 : W1 m ρ c (Proc.devRef .tc main_arg0) = m ((c.tc : Thread nD τ).loc main_arg0) := by
  show StableHlo.after hostOps0 (W0 m ρ c) (Proc.devRef .tc main_arg0) = _
  after_results

theorem W1_arg2 : W1 m ρ c (Proc.devRef .tc main_arg2) = m ((c.tc : Thread nD τ).loc main_arg2) := by
  show StableHlo.after hostOps0 (W0 m ρ c) (Proc.devRef .tc main_arg2) = _
  after_results

theorem W1_arg4 : W1 m ρ c (Proc.devRef .tc main_arg4) = m ((c.tc : Thread nD τ).loc main_arg4) := by
  show StableHlo.after hostOps0 (W0 m ρ c) (Proc.devRef .tc main_arg4) = _
  after_results

end Run

end Cert.KernelIdeal.Walk

end
-- ==== Proof.LibRowWise.lean ====
/-
  Row-wise layers on rank-2 arrays of extended reals.

  Every layer of the network is ROW-WISE: row r of its result is a function of row r of its input (and of a small
  parameter array).  "rowMap f x" applies a row function "f" to every row of "x".  The three row functions:
  "linRow w" (the row times the matrix "w": entry c is the sum over l of z l * w (l, c)), "reluRow b" (add the
  one-row array "b", then the maximum with zero) and "lsmRow b" (add "b", subtract the row's maximum, then subtract
  the logarithm of the sum of the exponentials: the logarithm of the softmax).  The row's maximum is the fold of
  "max" from minus infinity, which is how both a lane reduction and a host reduction read it.

  A row-wise layer commutes with cutting out a band of rows ("rowMap_band"): the band of the result is the result
  of the band.  That one fact is what lets a computation done band by band be compared with the whole computation.
-/
import Idealize.ShloMosaic.Lib.ValueIdx
import Idealize.ShloMosaic.PureOps.Ideal.Laws

noncomputable section

open scoped BigOperators

namespace GcnSpec

open Idealize.ShloMosaic Idealize.ShloMosaic.ValueIdx

/-- An n × k array of extended reals. -/
abbrev Arr (n k : ℕ) : Type := (⟨2, ![n, k]⟩ : Shape).Idx → EReal

/-- Row r of an array, as a function of the column. -/
def row {n k : ℕ} (x : Arr n k) (r : Fin n) : Fin k → EReal := fun l => x (ix2 r l)

/-- A row function applied to every row. -/
def rowMap {n k q : ℕ} (f : (Fin k → EReal) → Fin q → EReal) (x : Arr n k) : Arr n q :=
  fun i => f (row x ⟨(i 0).val, idx2_lt0 i⟩) ⟨(i 1).val, idx2_lt1 i⟩

theorem rowMap_ix2 {n k q : ℕ} (f : (Fin k → EReal) → Fin q → EReal) (x : Arr n k) (r : Fin n) (c : Fin q) :
    rowMap f x (ix2 r c) = f (row x r) c := rfl

/-- To show an array is "rowMap f x" it is enough to read it at every pair of coordinates. -/
theorem eq_rowMap {n k q : ℕ} (f : (Fin k → EReal) → Fin q → EReal) (x : Arr n k) (y : Arr n q)
    (h : ∀ (r : Fin n) (c : Fin q), y (ix2 r c) = f (row x r) c) : y = rowMap f x := by
  funext i
  obtain ⟨r, c, rfl⟩ : ∃ (r : Fin n) (c : Fin q), i = ix2 r c := ⟨i 0, i 1, eq_ix2 i⟩
  rw [h, rowMap_ix2]

/-- A band of rows: the band of the result is the result of the band.  "e₁" and "e₂" send an index of the band to
    the index of the whole array "o" rows further down, in the same column. -/
theorem rowMap_band {N n k q : ℕ} (f : (Fin k → EReal) → Fin q → EReal) (X : Arr N k) (o : ℕ)
    (e₁ : (⟨2, ![n, k]⟩ : Shape).Idx → (⟨2, ![N, k]⟩ : Shape).Idx)
    (e₂ : (⟨2, ![n, q]⟩ : Shape).Idx → (⟨2, ![N, q]⟩ : Shape).Idx)
    (h10 : ∀ j, (e₁ j 0).val = o + (j 0).val) (h11 : ∀ j, (e₁ j 1).val = (j 1).val)
    (h20 : ∀ j, (e₂ j 0).val = o + (j 0).val) (h21 : ∀ j, (e₂ j 1).val = (j 1).val)
    (j : (⟨2, ![n, q]⟩ : Shape).Idx) :
    rowMap f X (e₂ j) = rowMap f (fun y => X (e₁ y)) j := by
  unfold rowMap
  have hr : row X ⟨(e₂ j 0).val, idx2_lt0 (e₂ j)⟩ = row (fun y => X (e₁ y)) ⟨(j 0).val, idx2_lt0 j⟩ := by
    funext l
    unfold row
    refine congrArg X (funext fun a => Fin.ext ?_)
    match a with
    | ⟨0, _⟩ => show (e₂ j 0).val = (e₁ (ix2 ⟨(j 0).val, idx2_lt0 j⟩ l) 0).val; rw [h20, h10]; rfl
    | ⟨1, _⟩ => show l.val = (e₁ (ix2 ⟨(j 0).val, idx2_lt0 j⟩ l) 1).val; rw [h11]; rfl
  have hc : (⟨(e₂ j 1).val, idx2_lt1 (e₂ j)⟩ : Fin q) = ⟨(j 1).val, idx2_lt1 j⟩ := Fin.ext (h21 j)
  rw [hr, hc]

/-! ## The three row functions -/

/-- The row times a matrix. -/
def linRow {k q : ℕ} (w : Arr k q) (z : Fin k → EReal) : Fin q → EReal := fun c => ∑ l : Fin k, z l * w (ix2 l c)

/-- The float zero and minus infinity, kept as the words the programs spell them with. -/
def zeroF : EReal := Ideal.ofBits .f32 0x00000000#32
def negInfF : EReal := Ideal.ofBits .f32 0xFF800000#32

/-- Add the one-row array, then the maximum with zero. -/
def reluRow {k : ℕ} (b : Arr 1 k) (z : Fin k → EReal) : Fin k → EReal :=
  fun c => max (z c + b (ix2 (0 : Fin 1) c)) zeroF

/-- A row's maximum: the fold of "max" from minus infinity. -/
def rowMax {k : ℕ} (y : Fin k → EReal) : EReal := (Finset.univ : Finset (Fin k)).fold max negInfF y

/-- The row shifted by its maximum. -/
def shifted {k : ℕ} (y : Fin k → EReal) : Fin k → EReal := fun c => y c - rowMax y

/-- The logarithm of the softmax of a row. -/
def logSoftmax {k : ℕ} (y : Fin k → EReal) : Fin k → EReal :=
  fun c => shifted y c - Ideal.log (∑ l : Fin k, Ideal.exp (shifted y l))

/-- Add the one-row array, then the logarithm of the softmax. -/
def lsmRow {k : ℕ} (b : Arr 1 k) (z : Fin k → EReal) : Fin k → EReal :=
  logSoftmax fun c => z c + b (ix2 (0 : Fin 1) c)

/-- Minus infinity is the unit of "max". -/
theorem max_negInfF (y : EReal) : max negInfF y = y := by
  unfold negInfF; simp [Ideal.ofBits, Ideal.ieee]

theorem zeroF_eq : zeroF = 0 := Ideal.ofBits_zero_f32

/-! ## The layers -/

/-- The linear layer: every row times the matrix. -/
def lin {n k q : ℕ} (x : Arr n k) (w : Arr k q) : Arr n q := rowMap (linRow w) x
/-- Bias, then the maximum with zero. -/
def relu {n k : ℕ} (a : Arr n k) (b : Arr 1 k) : Arr n k := rowMap (reluRow b) a
/-- Bias, then the logarithm of the softmax along the row. -/
def lsm {n k : ℕ} (a : Arr n k) (b : Arr 1 k) : Arr n k := rowMap (lsmRow b) a

end GcnSpec

end
-- ==== Proof.GcnNet.lean ====
/-
  The two-layer graph convolution as functions on arrays of extended reals.

  A graph has n nodes and m directed edges (the self loops among them).  Every node carries a factor d (the inverse
  square root of its degree).  One round of message passing sends, along every edge, the source node's row to the
  target node and adds up what arrives, each message weighted by the factors of both ends of its edge.

  The sum over the edges arriving at a node is the host's accumulating scatter, and picking the source node's row is
  the host's gather; both are kept as the library's functions of an integer array of edge ends, so that nothing here
  depends on how out-of-range or negative node numbers are treated.  Two arrangements of one round are stated:

    aggK   scale every row by its node's factor, gather, add up at the target, scale the sums by the target's factor;
    aggR   gather the rows, weight every message by (factor of the source) * (factor of the target), add up.

  They agree when all entries are real numbers, because a real factor distributes over a finite sum of reals
  (the graph-aggregation module proves it).  The network is: dense layer, round, maximum with zero, dense layer,
  round, logarithm of the softmax of every row.
-/
import Idealize.ShloMosaic.Lib.ValueIdx
import Idealize.ShloMosaic.PureOps.Ideal.Laws
import proofs.«151475_j61306363183616_2_alg».proof.Proof.LibRowWise

noncomputable section

open scoped BigOperators

namespace Gcn

open Idealize.ShloMosaic Idealize.ShloMosaic.ValueIdx GcnSpec

/-- A vector of n extended reals. -/
abbrev Vecr (n : ℕ) : Type := (⟨1, ![n]⟩ : Shape).Idx → EReal
/-- One node number per edge, as the programs hold it: an m × 1 array of 32-bit words. -/
abbrev Ends (m : ℕ) : Type := IVec (⟨2, ![m, 1]⟩ : Shape) 32

/-- An extended real that is a real number. -/
def IsReal (x : EReal) : Prop := ∃ r : ℝ, x = (r : EReal)

variable {n m k q : ℕ}

/-- The dense layer with the weight stored output-major: entry (r, c) is the sum over l of x (r, l) * w (c, l), plus
    the bias of column c. -/
def dense (x : Arr n k) (w : Arr q k) (b : Vecr q) : Arr n q :=
  fun i => (∑ l : Fin k, x (ix2 ⟨(i 0).val, idx2_lt0 i⟩ l) * w (ix2 ⟨(i 1).val, idx2_lt1 i⟩ l))
    + b (ix1 ⟨(i 1).val, idx2_lt1 i⟩)

theorem dense_ix2 (x : Arr n k) (w : Arr q k) (b : Vecr q) (r : Fin n) (c : Fin q) :
    dense x w b (ix2 r c) = (∑ l : Fin k, x (ix2 r l) * w (ix2 c l)) + b (ix1 c) := rfl

/-- The maximum with zero, entry by entry. -/
def relu0 (a : Arr n k) : Arr n k := fun i => max (a i) zeroF

/-- Every row multiplied by its node's factor. -/
def scaleRows (d : Vecr n) (a : Arr n k) : Arr n k := fun i => d (ix1 ⟨(i 0).val, idx2_lt0 i⟩) * a i

theorem scaleRows_ix2 (d : Vecr n) (a : Arr n k) (r : Fin n) (c : Fin k) :
    scaleRows d a (ix2 r c) = d (ix1 r) * a (ix2 r c) := rfl

/-- The array of float zeros an accumulation starts from. -/
def zeros : Arr n k := fun _ => zeroF

/-- The dimension numbers of "row src[e] of an n × q array, for every edge e". -/
def IsRowGather (gd : GatherDims (⟨2, ![n, q]⟩ : Shape) (⟨2, ![m, 1]⟩ : Shape) (⟨2, ![m, q]⟩ : Shape)) : Prop :=
  gd.offsetDims = [1] ∧ gd.collapsedSliceDims = [0] ∧ gd.operandBatchingDims = [] ∧ gd.startIndicesBatchingDims = []
    ∧ gd.startIndexMap = [0] ∧ gd.indexVectorDim = 1 ∧ gd.sliceSizes = ![1, q]

/-- The dimension numbers of "entry src[e] of a vector of n, for every edge e". -/
def IsVecGather (g1 : GatherDims (⟨1, ![n]⟩ : Shape) (⟨2, ![m, 1]⟩ : Shape) (⟨1, ![m]⟩ : Shape)) : Prop :=
  g1.offsetDims = [] ∧ g1.collapsedSliceDims = [0] ∧ g1.operandBatchingDims = [] ∧ g1.startIndicesBatchingDims = []
    ∧ g1.startIndexMap = [0] ∧ g1.indexVectorDim = 1 ∧ g1.sliceSizes = ![1]

/-- The dimension numbers of "add row e of an m × q array into row dst[e] of an n × q array". -/
def IsRowScatter (sd : ScatterDims (⟨2, ![n, q]⟩ : Shape) (⟨2, ![m, 1]⟩ : Shape) (⟨2, ![m, q]⟩ : Shape)) : Prop :=
  sd.updateWindowDims = [1] ∧ sd.insertedWindowDims = [0] ∧ sd.scatterDimsToOperandDims = [0] ∧ sd.indexVectorDim = 1

/-- One round, factors applied to the rows before the gather and to the sums after the scatter. -/
def aggK (gd : GatherDims (⟨2, ![n, q]⟩ : Shape) (⟨2, ![m, 1]⟩ : Shape) (⟨2, ![m, q]⟩ : Shape))
    (sd : ScatterDims (⟨2, ![n, q]⟩ : Shape) (⟨2, ![m, 1]⟩ : Shape) (⟨2, ![m, q]⟩ : Shape))
    (d : Vecr n) (src dst : Ends m) (h : Arr n q) : Arr n q :=
  scaleRows d (Ideal.hostScatterAdd sd (zeros : Arr n q) dst (Host.gather gd (scaleRows d h) src))

/-- The weight of edge e: the factor of its source times the factor of its target ("dstw" is the array of targets as
    the gather takes it). -/
def edgeWeight (g1 : GatherDims (⟨1, ![n]⟩ : Shape) (⟨2, ![m, 1]⟩ : Shape) (⟨1, ![m]⟩ : Shape))
    (d : Vecr n) (src dstw : Ends m) : Vecr m :=
  fun e => Host.gather g1 d src e * Host.gather g1 d dstw e

/-- One round, every message weighted by its edge's weight. -/
def aggR (g1 : GatherDims (⟨1, ![n]⟩ : Shape) (⟨2, ![m, 1]⟩ : Shape) (⟨1, ![m]⟩ : Shape))
    (gd : GatherDims (⟨2, ![n, q]⟩ : Shape) (⟨2, ![m, 1]⟩ : Shape) (⟨2, ![m, q]⟩ : Shape))
    (sd : ScatterDims (⟨2, ![n, q]⟩ : Shape) (⟨2, ![m, 1]⟩ : Shape) (⟨2, ![m, q]⟩ : Shape))
    (d : Vecr n) (src dstw dst : Ends m) (h : Arr n q) : Arr n q :=
  Ideal.hostScatterAdd sd (zeros : Arr n q) dst
    (fun j => edgeWeight g1 d src dstw (ix1 ⟨(j 0).val, idx2_lt0 j⟩) * Host.gather gd h src j)

variable {p : ℕ}

/-- The network, first arrangement. -/
def netK (gdH : GatherDims (⟨2, ![n, p]⟩ : Shape) (⟨2, ![m, 1]⟩ : Shape) (⟨2, ![m, p]⟩ : Shape))
    (sdH : ScatterDims (⟨2, ![n, p]⟩ : Shape) (⟨2, ![m, 1]⟩ : Shape) (⟨2, ![m, p]⟩ : Shape))
    (gdO : GatherDims (⟨2, ![n, q]⟩ : Shape) (⟨2, ![m, 1]⟩ : Shape) (⟨2, ![m, q]⟩ : Shape))
    (sdO : ScatterDims (⟨2, ![n, q]⟩ : Shape) (⟨2, ![m, 1]⟩ : Shape) (⟨2, ![m, q]⟩ : Shape))
    (d : Vecr n) (src dst : Ends m) (x : Arr n k) (w1 : Arr p k) (b1 : Vecr p) (w2 : Arr q p) (b2 : Vecr q) : Arr n q :=
  rowMap logSoftmax (aggK gdO sdO d src dst (dense (relu0 (aggK gdH sdH d src dst (dense x w1 b1))) w2 b2))

/-- The network, second arrangement. -/
def netR (g1 : GatherDims (⟨1, ![n]⟩ : Shape) (⟨2, ![m, 1]⟩ : Shape) (⟨1, ![m]⟩ : Shape))
    (gdH : GatherDims (⟨2, ![n, p]⟩ : Shape) (⟨2, ![m, 1]⟩ : Shape) (⟨2, ![m, p]⟩ : Shape))
    (sdH : ScatterDims (⟨2, ![n, p]⟩ : Shape) (⟨2, ![m, 1]⟩ : Shape) (⟨2, ![m, p]⟩ : Shape))
    (gdO : GatherDims (⟨2, ![n, q]⟩ : Shape) (⟨2, ![m, 1]⟩ : Shape) (⟨2, ![m, q]⟩ : Shape))
    (sdO : ScatterDims (⟨2, ![n, q]⟩ : Shape) (⟨2, ![m, 1]⟩ : Shape) (⟨2, ![m, q]⟩ : Shape))
    (d : Vecr n) (src dstw dst : Ends m) (x : Arr n k) (w1 : Arr p k) (b1 : Vecr p) (w2 : Arr q p) (b2 : Vecr q) : Arr n q :=
  rowMap logSoftmax (aggR g1 gdO sdO d src dstw dst (dense (relu0 (aggR g1 gdH sdH d src dstw dst (dense x w1 b1))) w2 b2))

end Gcn

end
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.LibRowCol.lean ====
/-
  A vector seen as a one-column or a one-row array, and the layout operations that compute those views.

  `colOf y` is the `[n, 1]` array whose entry `(p, 0)` is `y p`; `rowOf b` the `[1, k]` array whose entry `(0, q)` is
  `b q`.  A reshape of `[n]` to `[n, 1]` is the column view and a reshape of `[k]` to `[1, k]` the row view
  (`shapeCast_col`, `shapeCast_row`); a view read at an index is the vector at ANY index with the same coordinate
  (`colOf_eq`, `rowOf_eq`), which is how a chain of broadcasts that ends in the vector is matched with the view.
  An `[a, 1]` array broadcast to `[a, b]` reads its one column in the row (`broadcastTo_a1_ab_apply`), and an `[a]`
  array cast to `[a, 1]` reads the vector in the row (`shapeCast_a_a1_apply`).  Over generic extents; indices are built
  from coordinates.
-/
import Idealize.ShloMosaic.Lib.Pipeline.Value
import Idealize.ShloMosaic.Lib.ValueIdx
import Idealize.ShloMosaic.Lib.ValueLayout

noncomputable section

namespace RowCol

open Idealize.ShloMosaic Idealize.ShloMosaic.ValueIdx

/-! ## Layout operations at coordinates -/

section Layout
variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if 1 = 1 then 0 else c.val
    exact (if_pos rfl).symm

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

end Layout

/-! ## Column and row views of a vector of extended reals -/

/-- A vector as a one-column array. -/
def colOf {n : ℕ} (y : (⟨1, ![n]⟩ : Shape).Idx → EReal) : (⟨2, ![n, 1]⟩ : Shape).Idx → EReal :=
  fun i => y (ix1 ⟨(i 0).val, idx2_lt0 i⟩)

/-- A vector as a one-row array. -/
def rowOf {k : ℕ} (b : (⟨1, ![k]⟩ : Shape).Idx → EReal) : (⟨2, ![1, k]⟩ : Shape).Idx → EReal :=
  fun i => b (ix1 ⟨(i 1).val, idx2_lt1 i⟩)

theorem colOf_ix2 {n : ℕ} (y : (⟨1, ![n]⟩ : Shape).Idx → EReal) (p : Fin n) (u : Fin 1) : colOf y (ix2 p u) = y (ix1 p) := rfl
theorem rowOf_ix2 {k : ℕ} (b : (⟨1, ![k]⟩ : Shape).Idx → EReal) (u : Fin 1) (q : Fin k) : rowOf b (ix2 u q) = b (ix1 q) := rfl

/-- The column view at an index is the vector at any index with the same row number. -/
theorem colOf_eq {n : ℕ} (y : (⟨1, ![n]⟩ : Shape).Idx → EReal) (i : (⟨2, ![n, 1]⟩ : Shape).Idx) (k : (⟨1, ![n]⟩ : Shape).Idx)
    (hk : (k 0).val = (i 0).val) : colOf y i = y k :=
  congrArg y (funext fun a => Fin.ext (match a with | ⟨0, _⟩ => hk.symm))

/-- The row view at an index is the vector at any index with the same column number. -/
theorem rowOf_eq {k : ℕ} (b : (⟨1, ![k]⟩ : Shape).Idx → EReal) (i : (⟨2, ![1, k]⟩ : Shape).Idx) (l : (⟨1, ![k]⟩ : Shape).Idx)
    (hl : (l 0).val = (i 1).val) : rowOf b i = b l :=
  congrArg b (funext fun a => Fin.ext (match a with | ⟨0, _⟩ => hl.symm))

/-- A reshape of a vector to one column is its column view. -/
theorem shapeCast_col {n : ℕ} (y : (⟨1, ![n]⟩ : Shape).Idx → EReal) (h : (⟨1, ![n]⟩ : Shape).ShapeCasts ⟨2, ![n, 1]⟩) :
    shapeCast ⟨2, ![n, 1]⟩ y h = colOf y := by
  funext i
  obtain ⟨p, u, rfl⟩ : ∃ (p : Fin n) (u : Fin 1), i = ix2 p u := ⟨i 0, i 1, eq_ix2 i⟩
  rw [shapeCast_a_a1_apply, colOf_ix2]

/-- A reshape of a vector to one row is its row view. -/
theorem shapeCast_row {k : ℕ} (b : (⟨1, ![k]⟩ : Shape).Idx → EReal) (h : (⟨1, ![k]⟩ : Shape).ShapeCasts ⟨2, ![1, k]⟩) :
    shapeCast ⟨2, ![1, k]⟩ b h = rowOf b := by
  funext i
  obtain ⟨u, q, rfl⟩ : ∃ (u : Fin 1) (q : Fin k), i = ix2 u q := ⟨i 0, i 1, eq_ix2 i⟩
  rw [shapeCast_a_1a_apply, rowOf_ix2]

end RowCol

end
-- ==== Proof.LibLayout.lean ====
/-
  Layout operations read at an index written by its coordinates, for the shapes a "keepdims" reduction kernel meets:
  a unit axis inserted in the middle or at the end of a shape by a shape cast, a broadcast along such a unit axis,
  the two composed, and a sum over one axis read as a `Fin`-indexed sum at coordinates.  All statements are over
  generic extents; the indices are the library's `ixN` constructors.
-/
import Idealize.ShloMosaic.Lib.Pipeline.Value
import Idealize.ShloMosaic.Lib.ValueIdx
import Idealize.ShloMosaic.Lib.ValueLayout
import Idealize.ShloMosaic.PureOps.Ideal.Laws

namespace PushPull.Layout

open Idealize.ShloMosaic Idealize.ShloMosaic.ValueIdx

variable {α : Type}

/-! ## A unit axis inserted by a shape cast -/

/-- `[a, b] → [a, b, 1]`: the entry `(i, j, 0)` is the entry `(i, j)`. -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- `[a, b] → [a, 1, b]`. -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- `[a, b, c] → [a, b, 1, c]`. -/
theorem cast_abc_ab1c {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_three, Shape.rowMajor_val_four]
    show (i.val * b + j.val) * c + k.val = ((i.val * b + j.val) * 1 + u.val) * c + k.val
    rw [hu, Nat.mul_one, Nat.add_zero])

/-- `[a, b, c] → [a, 1, b, c]`. -/
theorem cast_abc_a1bc {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu, Nat.mul_one, Nat.add_zero])

/-- `[a, b, c] → [a, b, c, 1]`. -/
theorem cast_abc_abc1 {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- `[a] → [a, 1]`. -/
theorem cast_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## A broadcast along a unit axis -/

/-- `[a, b, 1, c] → [a, b, k, c]`. -/
theorem bcast_ab1c {a b c k : ℕ} (x : (⟨4, ![a, b, 1, c]⟩ : Shape).Idx → α)
    (h : (⟨4, ![a, b, 1, c]⟩ : Shape).Broadcasts ⟨4, ![a, b, k, c]⟩) (i : Fin a) (j : Fin b) (q : Fin k) (l : Fin c) :
    broadcastTo ⟨4, ![a, b, k, c]⟩ x h (ix4 i j q l) = x (ix4 i j (0 : Fin 1) l) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm
    | ⟨3, _⟩ => show l.val = if c = 1 then 0 else l.val; split <;> omega)

/-- `[a, 1, b, c] → [a, k, b, c]`. -/
theorem bcast_a1bc {a b c k : ℕ} (x : (⟨4, ![a, 1, b, c]⟩ : Shape).Idx → α)
    (h : (⟨4, ![a, 1, b, c]⟩ : Shape).Broadcasts ⟨4, ![a, k, b, c]⟩) (i : Fin a) (q : Fin k) (j : Fin b) (l : Fin c) :
    broadcastTo ⟨4, ![a, k, b, c]⟩ x h (ix4 i q j l) = x (ix4 i (0 : Fin 1) j l) :=
  broadcastTo_apply x h _ _ (fun ax => by
    have hi := i.isLt; have hj := j.isLt; have hl := l.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega
    | ⟨3, _⟩ => show l.val = if c = 1 then 0 else l.val; split <;> omega)

/-- `[a, b, 1] → [a, b, k]`. -/
theorem bcast_ab1 {a b k : ℕ} (x : (⟨3, ![a, b, 1]⟩ : Shape).Idx → α)
    (h : (⟨3, ![a, b, 1]⟩ : Shape).Broadcasts ⟨3, ![a, b, k]⟩) (i : Fin a) (j : Fin b) (q : Fin k) :
    broadcastTo ⟨3, ![a, b, k]⟩ x h (ix3 i j q) = x (ix3 i j (0 : Fin 1)) :=
  broadcastTo_apply x h _ _ (fun ax => by
    have hi := i.isLt; have hj := j.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm)

/-- `[a, 1, b] → [a, k, b]`. -/
theorem bcast_a1b {a b k : ℕ} (x : (⟨3, ![a, 1, b]⟩ : Shape).Idx → α)
    (h : (⟨3, ![a, 1, b]⟩ : Shape).Broadcasts ⟨3, ![a, k, b]⟩) (i : Fin a) (q : Fin k) (j : Fin b) :
    broadcastTo ⟨3, ![a, k, b]⟩ x h (ix3 i q j) = x (ix3 i (0 : Fin 1) j) :=
  broadcastTo_apply x h _ _ (fun ax => by
    have hi := i.isLt; have hj := j.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega)

/-- `[a, b, c, 1] → [a, b, c, k]`. -/
theorem bcast_abc1 {a b c k : ℕ} (x : (⟨4, ![a, b, c, 1]⟩ : Shape).Idx → α)
    (h : (⟨4, ![a, b, c, 1]⟩ : Shape).Broadcasts ⟨4, ![a, b, c, k]⟩) (i : Fin a) (j : Fin b) (l : Fin c) (q : Fin k) :
    broadcastTo ⟨4, ![a, b, c, k]⟩ x h (ix4 i j l q) = x (ix4 i j l (0 : Fin 1)) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show l.val = if c = 1 then 0 else l.val; split <;> omega
    | ⟨3, _⟩ => show (0 : ℕ) = if 1 = 1 then 0 else q.val; exact (if_pos rfl).symm)

/-- `[1, 1] → [1, k]`. -/
theorem bcast_11 {k : ℕ} (x : (⟨2, ![1, 1]⟩ : Shape).Idx → α)
    (h : (⟨2, ![1, 1]⟩ : Shape).Broadcasts ⟨2, ![1, k]⟩) (u : Fin 1) (q : Fin k) :
    broadcastTo ⟨2, ![1, k]⟩ x h (ix2 u q) = x (ix2 (0 : Fin 1) (0 : Fin 1)) :=
  broadcastTo_apply x h _ _ (fun ax => by
    match ax with
    | ⟨0, _⟩ => show (0 : ℕ) = if 1 = 1 then 0 else u.val; exact (if_pos rfl).symm
    | ⟨1, _⟩ => show (0 : ℕ) = if 1 = 1 then 0 else q.val; exact (if_pos rfl).symm)

/-! ## A sum over one axis, at coordinates -/

section Sums
variable {φ : FTy}

/-- The last axis of three. -/
theorem sum_abc_2 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext (by
      match ax with | ⟨0, _⟩ => rfl | ⟨1, _⟩ => rfl | ⟨2, _⟩ => rfl)))

/-- The last axis of four. -/
theorem sum_abcd_3 {a b c d : ℕ} (src : FVec Ideal ⟨4, ![a, b, c, d]⟩ φ) (acc : BitVec φ.bits)
    (h : (⟨4, ![a, b, c, d]⟩ : Shape).Reduces [3] ⟨3, ![a, b, c]⟩) (hφ : FKind.Formats φ) (hacc : acc = FKind.add.neutral φ hφ)
    (i : Fin a) (j : Fin b) (l : Fin c) :
    multiReduction .add [3] ⟨3, ![a, b, c]⟩ src acc h hφ hacc (ix3 i j l) = ∑ k : Fin d, src (ix4 i j l k) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The third axis of four. -/
theorem sum_abcd_2 {a b c d : ℕ} (src : FVec Ideal ⟨4, ![a, b, c, d]⟩ φ) (acc : BitVec φ.bits)
    (h : (⟨4, ![a, b, c, d]⟩ : Shape).Reduces [2] ⟨3, ![a, b, d]⟩) (hφ : FKind.Formats φ) (hacc : acc = FKind.add.neutral φ hφ)
    (i : Fin a) (j : Fin b) (l : Fin d) :
    multiReduction .add [2] ⟨3, ![a, b, d]⟩ src acc h hφ hacc (ix3 i j l) = ∑ k : Fin c, src (ix4 i j k l) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The last axis of two. -/
theorem sum_ab_1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun ax => Fin.ext (by
      match ax with | ⟨0, _⟩ => rfl | ⟨1, _⟩ => rfl)))

/-- The first axis of two. -/
theorem sum_ab_0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (funext fun ax => Fin.ext (by
      match ax with | ⟨0, _⟩ => rfl | ⟨1, _⟩ => rfl)))

end Sums

end PushPull.Layout
-- ==== Proof.LibRowOps.lean ====
/-
  The programs' operation chains as row-wise layers.

  Each lemma takes a chain of vector operations exactly as one of the two programs spells it, over arrays with ANY
  number "n" of rows, and says it is a layer of GcnSpec: a matrix unit's product onto the zero accumulator and the
  host's dot_general are both "lin"; bias-add followed by the maximum with zero is "relu", whether the bias arrives
  as a loaded one-row block broadcast over the rows or as a vector broadcast twice on the host; and the shifted
  log-sum-exp chain is the logarithm of the softmax of every row, whether the row's maximum and the row's sum are
  lane reductions or host reductions (the host takes one more maximum with minus infinity, which changes nothing).
  All reductions are over the second axis; a reduced vector is put back beside the rows as a one-column array.
-/
import Idealize.ShloMosaic.Lib.Pipeline.Value
import Idealize.ShloMosaic.Lib.ValueIdx
import Idealize.ShloMosaic.Lib.ValueLayout
import Idealize.ShloMosaic.PureOps.Ideal.Laws
import proofs.«151475_j61306363183616_2_alg».proof.Proof.LibRowWise
import proofs.«151475_j61306363183616_2_alg».proof.Proof.LibMatProd
import proofs.«151475_j61306363183616_2_alg».proof.Proof.LibRowCol
import proofs.«151475_j61306363183616_2_alg».proof.Proof.LibLayout

noncomputable section

open scoped BigOperators

namespace GcnOps

open Idealize.ShloMosaic Idealize.ShloMosaic.ValueIdx GcnSpec

variable {n k q : ℕ}

/-! ## The linear layer -/

/-- A matrix unit's product of rank-2 operands onto the zero accumulator is the linear layer. -/
theorem matmul_zero_eq_lin {φ₁ φ₂ : FTy}
    (d : DotDims (⟨2, ![n, k]⟩ : Shape) (⟨2, ![k, q]⟩ : Shape) (⟨2, ![n, q]⟩ : Shape)) (prec : Option ContractPrecision)
    (hr : d.contr.rank = 1) (hs : d.contr.size ⟨0, by omega⟩ = k)
    (hl0 : ∀ (j : (⟨2, ![n, q]⟩ : Shape).Idx) (c : d.contr.Idx), (d.lhsIdx j c 0).val = (j 0).val)
    (hl1 : ∀ (j : (⟨2, ![n, q]⟩ : Shape).Idx) (c : d.contr.Idx), (d.lhsIdx j c 1).val = (c ⟨0, by omega⟩).val)
    (hr0 : ∀ (j : (⟨2, ![n, q]⟩ : Shape).Idx) (c : d.contr.Idx), (d.rhsIdx j c 0).val = (c ⟨0, by omega⟩).val)
    (hr1 : ∀ (j : (⟨2, ![n, q]⟩ : Shape).Idx) (c : d.contr.Idx), (d.rhsIdx j c 1).val = (j 1).val)
    (lhs : FVec Ideal (⟨2, ![n, k]⟩ : Shape) φ₁) (rhs : FVec Ideal (⟨2, ![k, q]⟩ : Shape) φ₂) :
    FloatOps.matmul d prec lhs rhs (constant (F := Ideal) (⟨2, ![n, q]⟩ : Shape) .f32 0x00000000#32) = lin lhs rhs :=
  eq_rowMap _ _ _ fun r c => (MatProd.matmul_zero_entry d prec hr hs hl0 hl1 hr0 hr1 lhs rhs r c).trans rfl

/-- The host's dot_general of rank-2 operands, one axis contracted, is the linear layer. -/
theorem dotGeneral_eq_lin {φ₁ φ₂ : FTy}
    (d : DotDims (⟨2, ![n, k]⟩ : Shape) (⟨2, ![k, q]⟩ : Shape) (⟨2, ![n, q]⟩ : Shape)) (prec : Option ContractPrecision)
    (sched : HostSchedule)
    (hr : d.contr.rank = 1) (hs : d.contr.size ⟨0, by omega⟩ = k)
    (hl0 : ∀ (j : (⟨2, ![n, q]⟩ : Shape).Idx) (c : d.contr.Idx), (d.lhsIdx j c 0).val = (j 0).val)
    (hl1 : ∀ (j : (⟨2, ![n, q]⟩ : Shape).Idx) (c : d.contr.Idx), (d.lhsIdx j c 1).val = (c ⟨0, by omega⟩).val)
    (hr0 : ∀ (j : (⟨2, ![n, q]⟩ : Shape).Idx) (c : d.contr.Idx), (d.rhsIdx j c 0).val = (c ⟨0, by omega⟩).val)
    (hr1 : ∀ (j : (⟨2, ![n, q]⟩ : Shape).Idx) (c : d.contr.Idx), (d.rhsIdx j c 1).val = (j 1).val)
    (lhs : FVec Ideal (⟨2, ![n, k]⟩ : Shape) φ₁) (rhs : FVec Ideal (⟨2, ![k, q]⟩ : Shape) φ₂) :
    FloatOps.dotGeneral d prec sched lhs rhs = lin lhs rhs := by
  refine eq_rowMap _ _ _ fun r c => ?_
  rw [Ideal.dotGeneral_apply, ← Equiv.sum_comp (contrEquiv1 d k hr hs).symm]
  show _ = ∑ l : Fin k, lhs (ix2 r l) * rhs (ix2 l c)
  refine Finset.sum_congr rfl fun l _ => ?_
  have hk := contrEquiv1_symm_val d k hr hs l
  have el : d.lhsIdx (ix2 r c) ((contrEquiv1 d k hr hs).symm l) = ix2 r l := funext fun a => Fin.ext (by
    match a with
    | ⟨0, _⟩ => exact hl0 _ _
    | ⟨1, _⟩ => exact (hl1 _ _).trans hk)
  have er : d.rhsIdx (ix2 r c) ((contrEquiv1 d k hr hs).symm l) = ix2 l c := funext fun a => Fin.ext (by
    match a with
    | ⟨0, _⟩ => exact (hr0 _ _).trans hk
    | ⟨1, _⟩ => exact hr1 _ _)
  rw [el, er]

/-! ## Bias, then the maximum with zero -/

/-- As a kernel body spells it: the block and the one-row bias block loaded (casts to their own shapes), the bias
    broadcast over the rows, the zero a scalar splat. -/
theorem relu_body (x : FVec Ideal (⟨2, ![n, k]⟩ : Shape) .f32) (b : FVec Ideal (⟨2, ![1, k]⟩ : Shape) .f32)
    (h1 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x h1) (broadcastTo ⟨2, ![n, k]⟩ (shapeCast ⟨2, ![1, k]⟩ b h2) hb))
      (broadcast ⟨2, ![n, k]⟩ (Scalar.ofBits (F := Ideal) .f32 0x00000000#32)) = relu x b := by
  rw [shapeCast_self, shapeCast_self]
  refine eq_rowMap _ _ _ fun r c => ?_
  rw [maximumf_apply, addf_apply, broadcast_apply, broadcastTo_1b_ab_apply]
  rfl

/-- The one-row view of a vector, broadcast over the rows on the host in two steps, read at coordinates. -/
theorem bias_host_apply (b : FVec Ideal (⟨1, ![k]⟩ : Shape) .f32)
    (h1 : (⟨1, ![k]⟩ : Shape).BroadcastsInDim (⟨2, ![1, k]⟩ : Shape) (![1] : Fin 1 → Fin 2))
    (h2 : (⟨2, ![1, k]⟩ : Shape).BroadcastsInDim (⟨2, ![n, k]⟩ : Shape) (![0, 1] : Fin 2 → Fin 2))
    (hsc : (⟨1, ![k]⟩ : Shape).ShapeCasts ⟨2, ![1, k]⟩) (r : Fin n) (c : Fin k) :
    broadcastInDim (⟨2, ![n, k]⟩ : Shape) (![0, 1] : Fin 2 → Fin 2) h2
        (broadcastInDim (⟨2, ![1, k]⟩ : Shape) (![1] : Fin 1 → Fin 2) h1 b) (ix2 r c)
      = shapeCast ⟨2, ![1, k]⟩ b hsc (ix2 (0 : Fin 1) c) := by
  have hc := c.isLt
  rw [broadcastInDim_apply _ h2 _ (ix2 r c) (ix2 (0 : Fin 1) c) (fun a => match a with
      | ⟨0, _⟩ => by show (0 : ℕ) = if (1 : ℕ) = 1 then 0 else r.val; rw [if_pos rfl]
      | ⟨1, _⟩ => by show c.val = if k = 1 then 0 else c.val; split <;> omega),
    broadcastInDim_apply _ h1 b (ix2 (0 : Fin 1) c) (ix1 c) (fun a => match a with
      | ⟨0, _⟩ => by show c.val = if k = 1 then 0 else c.val; split <;> omega),
    shapeCast_a_1a_apply]

/-- As the host spells it: the bias vector broadcast in two steps, the zero a rank-0 constant broadcast. -/
theorem relu_host (a : FVec Ideal (⟨2, ![n, k]⟩ : Shape) .f32) (b : FVec Ideal (⟨1, ![k]⟩ : Shape) .f32)
    (h1 : (⟨1, ![k]⟩ : Shape).BroadcastsInDim (⟨2, ![1, k]⟩ : Shape) (![1] : Fin 1 → Fin 2))
    (h2 : (⟨2, ![1, k]⟩ : Shape).BroadcastsInDim (⟨2, ![n, k]⟩ : Shape) (![0, 1] : Fin 2 → Fin 2))
    (h0 : (⟨0, ![]⟩ : Shape).BroadcastsInDim (⟨2, ![n, k]⟩ : Shape) (![] : Fin 0 → Fin 2))
    (hsc : (⟨1, ![k]⟩ : Shape).ShapeCasts ⟨2, ![1, k]⟩) :
    maximumf (addf a (broadcastInDim (⟨2, ![n, k]⟩ : Shape) (![0, 1] : Fin 2 → Fin 2) h2
        (broadcastInDim (⟨2, ![1, k]⟩ : Shape) (![1] : Fin 1 → Fin 2) h1 b)))
      (broadcastInDim (⟨2, ![n, k]⟩ : Shape) (![] : Fin 0 → Fin 2) h0 (constant (F := Ideal) (⟨0, ![]⟩ : Shape) .f32 0x00000000#32))
      = relu a (shapeCast ⟨2, ![1, k]⟩ b hsc) := by
  refine eq_rowMap _ _ _ fun r c => ?_
  rw [maximumf_apply, addf_apply, bias_host_apply b h1 h2 hsc r c,
    broadcastInDim_apply _ h0 _ (ix2 r c) ix0 (fun a => a.elim0), constant_apply]
  rfl

/-! ## The logarithm of the softmax -/

/-- The exponential and the logarithm, a body's and the host's, read at an index. -/
theorem exp_apply {s : Shape} (v : FVec Ideal s .f32) (i : s.Idx) : exp v i = Ideal.exp (v i) := rfl
theorem log_apply {s : Shape} (v : FVec Ideal s .f32) (i : s.Idx) : log v i = Ideal.log (v i) := rfl
theorem hostExp_apply {s : Shape} (v : FVec Ideal s .f32) (i : s.Idx) : Host.exp v i = Ideal.exp (v i) := rfl
theorem hostLog_apply {s : Shape} (v : FVec Ideal s .f32) (i : s.Idx) : Host.log v i = Ideal.log (v i) := rfl

/-- Index (r, l) is the reduced index r with the coordinate l put back on axis 1. -/
theorem lift1 (h : (⟨2, ![n, k]⟩ : Shape).Reduces [1] (⟨1, ![n]⟩ : Shape)) (r : Fin n)
    (l : Fin ((⟨2, ![n, k]⟩ : Shape).size 1)) : h.lift (ix1 r) l = ix2 r (⟨l.val, l.isLt⟩ : Fin k) :=
  funext fun ax => Fin.ext (by match ax with | ⟨0, _⟩ => rfl | ⟨1, _⟩ => rfl)

/-- A lane maximum along the row, from minus infinity, is the row's maximum. -/
theorem rowMax_body (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ) (r : Fin n) :
    multiReduction .maximumf [1] (⟨1, ![n]⟩ : Shape) y 0xFF800000#32 hR hφ hacc (ix1 r) = rowMax (row y r) := by
  refine (Ideal.multiReduction_maximumf_single y 0xFF800000#32 hR hφ hacc (ix1 r)).trans ?_
  have hf : (y ∘ hR.lift (ix1 r)) = fun l : Fin k => y (ix2 r l) := funext fun l => congrArg y (lift1 hR r l)
  exact congrArg (fun f => Finset.fold max negInfF f (Finset.univ : Finset (Fin k))) hf

/-- The host's reduce with a maximum body along the row, from minus infinity, is the row's maximum. -/
theorem rowMax_host (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel) (r : Fin n) :
    Host.reduce FloatOps.maximumf y (constant (F := Ideal) (⟨0, ![]⟩ : Shape) .f32 0xFF800000#32) hR' hu (ix1 r)
      = rowMax (row y r) := by
  rw [Host.reduce_eq_fold_single FloatOps.maximumf y _ hR' hR hu]
  have hf : (y ∘ hR.lift (ix1 r)) = fun l : Fin k => y (ix2 r l) := funext fun l => congrArg y (lift1 hR r l)
  exact congrArg (fun f => Finset.fold max negInfF f (Finset.univ : Finset (Fin k))) hf

/-- A lane sum along the row. -/
theorem rowSum_body (y : FVec Ideal (⟨2, ![n, k]⟩ : Shape) .f32)
    (hR : (⟨2, ![n, k]⟩ : Shape).Reduces [1] (⟨1, ![n]⟩ : Shape)) (hφ : FKind.Formats .f32)
    (hacc : (0x00000000#32 : BitVec 32) = FKind.add.neutral .f32 hφ) (r : Fin n) :
    multiReduction .add [1] (⟨1, ![n]⟩ : Shape) y 0x00000000#32 hR hφ hacc (ix1 r) = ∑ l : Fin k, y (ix2 r l) :=
  PushPull.Layout.sum_ab_1 y 0x00000000#32 hR hφ hacc r

/-- The host's sum along the row, from zero. -/
theorem rowSum_host (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel) (r : Fin n) :
    Host.reduceAdd y (constant (F := Ideal) (⟨0, ![]⟩ : Shape) .f32 0x00000000#32) hR' hu (ix1 r) = ∑ l : Fin k, y (ix2 r l) := by
  simp only [Host.reduceAdd, Ideal.hostReduceAdd_def]
  rw [Ideal.hostReduceAdd_single hR' hR, constant_apply, Ideal.ofBits_zero_f32, zero_add]
  exact Finset.sum_congr rfl fun l _ => congrArg y (lift1 hR r l)

/-- The row shifted by its maximum, as a kernel body spells it. -/
def shiftBody (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ)
    (hc : (⟨1, ![n]⟩ : Shape).ShapeCasts ⟨2, ![n, 1]⟩) (hb : (⟨2, ![n, 1]⟩ : Shape).Broadcasts ⟨2, ![n, k]⟩) :
    FVec Ideal (⟨2, ![n, k]⟩ : Shape) .f32 :=
  subf y (broadcastTo ⟨2, ![n, k]⟩
    (shapeCast ⟨2, ![n, 1]⟩ (multiReduction .maximumf [1] (⟨1, ![n]⟩ : Shape) y 0xFF800000#32 hR hφ hacc) hc) hb)

theorem shiftBody_apply (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ)
    (hc : (⟨1, ![n]⟩ : Shape).ShapeCasts ⟨2, ![n, 1]⟩) (hb : (⟨2, ![n, 1]⟩ : Shape).Broadcasts ⟨2, ![n, k]⟩)
    (r : Fin n) (c : Fin k) : shiftBody y hR hφ hacc hc hb (ix2 r c) = shifted (row y r) c := by
  unfold shiftBody
  rw [subf_apply, RowCol.broadcastTo_a1_ab_apply, RowCol.shapeCast_a_a1_apply, rowMax_body]
  rfl

/-- The logarithm of the softmax of every row, as a kernel body spells it. -/
theorem logSoftmax_body (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ)
    (hacc0 : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, k]⟩) :
    subf (shiftBody y hR hφ hacc hc hb) (broadcastTo ⟨2, ![n, k]⟩
      (log (shapeCast ⟨2, ![n, 1]⟩
        (multiReduction .add [1] (⟨1, ![n]⟩ : Shape) (exp (shiftBody y hR hφ hacc hc hb)) 0x00000000#32 hR hφ hacc0) hc)) hb)
      = rowMap logSoftmax y := by
  refine eq_rowMap _ _ _ fun r c => ?_
  rw [subf_apply, shiftBody_apply, RowCol.broadcastTo_a1_ab_apply, log_apply, RowCol.shapeCast_a_a1_apply, rowSum_body]
  show _ = shifted (row y r) c - Ideal.log (∑ l : Fin k, Ideal.exp (shifted (row y r) l))
  refine congrArg (fun s => shifted (row y r) c - Ideal.log s) (Finset.sum_congr rfl fun l _ => ?_)
  rw [exp_apply, shiftBody_apply]

/-- The whole last-layer body: bias added to the loaded block, then the logarithm of the softmax. -/
theorem lsm_body (x : FVec Ideal (⟨2, ![n, k]⟩ : Shape) .f32) (b : FVec Ideal (⟨2, ![1, k]⟩ : Shape) .f32)
    (h1 : (⟨2, ![n, k]⟩ : Shape).ShapeCasts ⟨2, ![n, k]⟩) (h2 : (⟨2, ![1, k]⟩ : Shape).ShapeCasts ⟨2, ![1, k]⟩)
    (hbb : (⟨2, ![1, k]⟩ : Shape).Broadcasts ⟨2, ![n, k]⟩)
    (hR : (⟨2, ![n, k]⟩ : Shape).Reduces [1] (⟨1, ![n]⟩ : Shape)) (hφ : FKind.Formats .f32)
    (hacc : (0xFF800000#32 : BitVec 32) = FKind.maximumf.neutral .f32 hφ)
    (hacc0 : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, k]⟩) :
    subf (shiftBody (addf (shapeCast ⟨2, ![n, k]⟩ x h1) (broadcastTo ⟨2, ![n, k]⟩ (shapeCast ⟨2, ![1, k]⟩ b h2) hbb)) hR hφ hacc hc hb)
      (broadcastTo ⟨2, ![n, k]⟩ (log (shapeCast ⟨2, ![n, 1]⟩ (multiReduction .add [1] (⟨1, ![n]⟩ : Shape)
        (exp (shiftBody (addf (shapeCast ⟨2, ![n, k]⟩ x h1) (broadcastTo ⟨2, ![n, k]⟩ (shapeCast ⟨2, ![1, k]⟩ b h2) hbb)) hR hφ hacc hc hb))
        0x00000000#32 hR hφ hacc0) hc)) hb)
      = lsm x b := by
  rw [logSoftmax_body, shapeCast_self, shapeCast_self]
  refine eq_rowMap _ _ _ fun r c => ?_
  rw [rowMap_ix2]
  refine congrFun (congrArg logSoftmax (funext fun l => ?_)) c
  show addf x (broadcastTo ⟨2, ![n, k]⟩ b hbb) (ix2 r l) = x (ix2 r l) + b (ix2 (0 : Fin 1) l)
  rw [addf_apply, broadcastTo_1b_ab_apply]

/-- The row shifted by its maximum, as the host spells it: the reduced maximum once more against minus infinity, then
    put back beside the rows by two broadcasts. -/
def shiftHost (y : FVec Ideal (⟨2, ![n, k]⟩ : Shape) .f32)
    (hR' : (⟨2, ![n, k]⟩ : Shape).ReducesTo [1] (⟨1, ![n]⟩ : Shape)) (hu : 0 < (⟨0, ![]⟩ : Shape).numel)
    (h0 : (⟨0, ![]⟩ : Shape).BroadcastsInDim (⟨1, ![n]⟩ : Shape) (![] : Fin 0 → Fin 1))
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2)) :
    FVec Ideal (⟨2, ![n, k]⟩ : Shape) .f32 :=
  subf y (broadcastInDim (⟨2, ![n, k]⟩ : Shape) (![0, 1] : Fin 2 → Fin 2) hrow
    (broadcastInDim (⟨2, ![n, 1]⟩ : Shape) (![0] : Fin 1 → Fin 2) hcol
      (maximumf (broadcastInDim (⟨1, ![n]⟩ : Shape) (![] : Fin 0 → Fin 1) h0 (constant (F := Ideal) (⟨0, ![]⟩ : Shape) .f32 0xFF800000#32))
        (Host.reduce FloatOps.maximumf y (constant (F := Ideal) (⟨0, ![]⟩ : Shape) .f32 0xFF800000#32) hR' hu))))

/-- A vector put beside the rows by the host's two broadcasts, read at coordinates. -/
theorem col_host_apply (v : FVec Ideal (⟨1, ![n]⟩ : Shape) .f32)
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2))
    (r : Fin n) (c : Fin k) :
    broadcastInDim (⟨2, ![n, k]⟩ : Shape) (![0, 1] : Fin 2 → Fin 2) hrow
      (broadcastInDim (⟨2, ![n, 1]⟩ : Shape) (![0] : Fin 1 → Fin 2) hcol v) (ix2 r c) = v (ix1 r) := by
  have hr := r.isLt
  rw [broadcastInDim_apply _ hrow _ (ix2 r c) (ix2 r (0 : Fin 1)) (fun a => match a with
      | ⟨0, _⟩ => by show r.val = if n = 1 then 0 else r.val; split <;> omega
      | ⟨1, _⟩ => by show (0 : ℕ) = if (1 : ℕ) = 1 then 0 else c.val; rw [if_pos rfl]),
    broadcastInDim_apply _ hcol v (ix2 r (0 : Fin 1)) (ix1 r) (fun a => match a with
      | ⟨0, _⟩ => by show r.val = if n = 1 then 0 else r.val; split <;> omega)]

theorem shiftHost_apply (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel)
    (h0 : (⟨0, ![]⟩ : Shape).BroadcastsInDim (⟨1, ![n]⟩ : Shape) (![] : Fin 0 → Fin 1))
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2))
    (r : Fin n) (c : Fin k) : shiftHost y hR' hu h0 hcol hrow (ix2 r c) = shifted (row y r) c := by
  unfold shiftHost
  rw [subf_apply, col_host_apply, maximumf_apply,
    broadcastInDim_apply _ h0 _ (ix1 r) ix0 (fun a => a.elim0), constant_apply, rowMax_host y hR' hR hu r]
  show y (ix2 r c) - max negInfF (rowMax (row y r)) = _
  rw [max_negInfF]
  rfl

/-- The logarithm of the softmax of every row, as the host spells it. -/
theorem logSoftmax_host (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel)
    (h0 : (⟨0, ![]⟩ : Shape).BroadcastsInDim (⟨1, ![n]⟩ : Shape) (![] : Fin 0 → Fin 1))
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2)) :
    subf (shiftHost y hR' hu h0 hcol hrow)
      (broadcastInDim (⟨2, ![n, k]⟩ : Shape) (![0, 1] : Fin 2 → Fin 2) hrow
        (Host.log (broadcastInDim (⟨2, ![n, 1]⟩ : Shape) (![0] : Fin 1 → Fin 2) hcol
          (Host.reduceAdd (Host.exp (shiftHost y hR' hu h0 hcol hrow))
            (constant (F := Ideal) (⟨0, ![]⟩ : Shape) .f32 0x00000000#32) hR' hu))))
      = rowMap logSoftmax y := by
  have hr1 : ∀ r : Fin n, (if n = 1 then 0 else r.val) = r.val := fun r => by have := r.isLt; split <;> omega
  refine eq_rowMap _ _ _ fun r c => ?_
  rw [subf_apply, shiftHost_apply y hR' hR hu h0 hcol hrow r c,
    broadcastInDim_apply _ hrow _ (ix2 r c) (ix2 r (0 : Fin 1)) (fun a => match a with
      | ⟨0, _⟩ => (hr1 r).symm
      | ⟨1, _⟩ => by show (0 : ℕ) = if (1 : ℕ) = 1 then 0 else c.val; rw [if_pos rfl]), hostLog_apply,
    broadcastInDim_apply _ hcol _ (ix2 r (0 : Fin 1)) (ix1 r) (fun a => match a with
      | ⟨0, _⟩ => (hr1 r).symm), rowSum_host _ hR' hR hu r]
  show _ = shifted (row y r) c - Ideal.log (∑ l : Fin k, Ideal.exp (shifted (row y r) l))
  refine congrArg (fun s => shifted (row y r) c - Ideal.log s) (Finset.sum_congr rfl fun l _ => ?_)
  rw [hostExp_apply, shiftHost_apply y hR' hR hu h0 hcol hrow r l]

/-- The host's last layer: bias broadcast in two steps and added, then the logarithm of the softmax. -/
theorem lsm_host (a : FVec Ideal (⟨2, ![n, k]⟩ : Shape) .f32) (b : FVec Ideal (⟨1, ![k]⟩ : Shape) .f32)
    (h1 : (⟨1, ![k]⟩ : Shape).BroadcastsInDim (⟨2, ![1, k]⟩ : Shape) (![1] : Fin 1 → Fin 2))
    (h2 : (⟨2, ![1, k]⟩ : Shape).BroadcastsInDim (⟨2, ![n, k]⟩ : Shape) (![0, 1] : Fin 2 → Fin 2))
    (hsc : (⟨1, ![k]⟩ : Shape).ShapeCasts ⟨2, ![1, k]⟩) :
    rowMap logSoftmax (addf a (broadcastInDim (⟨2, ![n, k]⟩ : Shape) (![0, 1] : Fin 2 → Fin 2) h2
        (broadcastInDim (⟨2, ![1, k]⟩ : Shape) (![1] : Fin 1 → Fin 2) h1 b)))
      = lsm a (shapeCast ⟨2, ![1, k]⟩ b hsc) := by
  refine eq_rowMap _ _ _ fun r c => ?_
  rw [rowMap_ix2]
  refine congrFun (congrArg logSoftmax (funext fun l => ?_)) c
  show addf a _ (ix2 r l) = a (ix2 r l) + shapeCast ⟨2, ![1, k]⟩ b hsc (ix2 (0 : Fin 1) l)
  rw [addf_apply, bias_host_apply b h1 h2 hsc r l]

end GcnOps

end
-- ==== Proof.RegionLsm.lean ====
/-
  The third region: the logarithm of the softmax of every row, computed band by band.

  The region walks 25 bands of 2000 rows.  At a band it loads the band of the aggregated array (2000 × 64) and the band
  of the node factors (2000 × 1), multiplies every row by its node's factor, and stores the logarithm of the softmax of
  every row.  A row's result depends on that row alone, so the band of the result is the result of the band; the 25
  bands tile the 50000 rows, so after the region the output array holds the logarithm of the softmax of every scaled
  row of the whole array.
-/
import proofs.«151475_j61306363183616_2_alg».proof.Proof.Gen.KernelIdeal.Frame
import proofs.«151475_j61306363183616_2_alg».proof.Proof.GcnNet
import proofs.«151475_j61306363183616_2_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx
open Idealize.ShloMosaic.Pipeline (Dat)
open GcnSpec Gcn

theorem hz : (![0, 0] : Fin 2 → Nat) = fun _ => 0 := funext fun a => by fin_cases a <;> rfl

/-- Every row of an array times its node's factor, the factors held as a one-column array. -/
def scaled {n k : ℕ} (d : Arr n 1) (a : Arr n k) : Arr n k :=
  fun i => d (ix2 ⟨(i 0).val, idx2_lt0 i⟩ (0 : Fin 1)) * a i

theorem scaled_ix2 {n k : ℕ} (d : Arr n 1) (a : Arr n k) (r : Fin n) (c : Fin k) :
    scaled d a (ix2 r c) = d (ix2 r (0 : Fin 1)) * a (ix2 r c) := rfl

/-- What the region leaves in its output array, as a function of the two arrays it reads. -/
def lsmOut (a : Arr 50000 64) (d : Arr 50000 1) : Arr 50000 64 := rowMap logSoftmax (scaled d a)

/-- The body's stored value is the logarithm of the softmax of every scaled row of the loaded band. -/
theorem pay2_eq (x0 : Vec Ideal S2000x64 .f32) (x1 : Vec Ideal S2000x1 .f32) :
    k2_pay1 x0 x1 = rowMap logSoftmax (scaled x1 x0) := by
  have hy : (mulf (F := Ideal) (broadcastTo S2000x64 (shapeCast S2000x1 x1 shapeCasts_S2000x1_S2000x1) broadcasts_S2000x1_S2000x64)
      (shapeCast S2000x64 x0 shapeCasts_S2000x64_S2000x64) : FVec Ideal S2000x64 .f32) = scaled x1 x0 := by
    funext i
    obtain ⟨p, c, rfl⟩ : ∃ (p : Fin 2000) (c : Fin 64), i = ix2 p c := ⟨i 0, i 1, eq_ix2 i⟩
    rw [mulf_apply, RowCol.broadcastTo_a1_ab_apply, shapeCast_self, shapeCast_self]
    rfl
  unfold k2_pay1
  refine (GcnOps.logSoftmax_body (mulf (F := Ideal) (broadcastTo S2000x64 (shapeCast S2000x1 x1 shapeCasts_S2000x1_S2000x1) broadcasts_S2000x1_S2000x64)
      (shapeCast S2000x64 x0 shapeCasts_S2000x64_S2000x64)) reduces_S2000x64_S2000 (.inl rfl) rfl rfl
      shapeCasts_S2000_S2000x1 broadcasts_S2000x1_S2000x64).trans ?_
  rw [hy]

/-- The band of the result is the result of the band: stated over plain arrays, the band given by where its indices
    sit in the whole array ("o" rows down, same column). -/
theorem lsm_band (A : Arr 50000 64) (D : Arr 50000 1) (x0 : Arr 2000 64) (x1 : Arr 2000 1) (o : ℕ)
    (e : (⟨2, ![2000, 64]⟩ : Shape).Idx → (⟨2, ![50000, 64]⟩ : Shape).Idx)
    (h0 : ∀ j, (e j 0).val = o + (j 0).val) (h1 : ∀ j, (e j 1).val = (j 1).val)
    (hx0 : ∀ y, x0 y = A (e y))
    (hx1 : ∀ y : (⟨2, ![2000, 64]⟩ : Shape).Idx, x1 (ix2 ⟨(y 0).val, idx2_lt0 y⟩ (0 : Fin 1)) = D (ix2 ⟨(e y 0).val, idx2_lt0 (e y)⟩ (0 : Fin 1)))
    (j : (⟨2, ![2000, 64]⟩ : Shape).Idx) :
    rowMap logSoftmax (scaled x1 x0) j = rowMap logSoftmax (scaled D A) (e j) := by
  rw [rowMap_band logSoftmax (scaled D A) o e e h0 h1 h0 h1 j]
  refine congrFun (congrArg (rowMap logSoftmax) (funext fun y => ?_)) j
  show x1 (ix2 ⟨(y 0).val, idx2_lt0 y⟩ (0 : Fin 1)) * x0 y = D (ix2 ⟨(e y 0).val, idx2_lt0 (e y)⟩ (0 : Fin 1)) * A (e y)
  rw [hx0, hx1]

section Region
variable (V : (c : Dev nD) → (b : Ref sig .tc) → Buf (Elt Ideal) ((c : Thread nD τ).loc b))

/-- The three windows move together: at point t each reads or writes band t of its array, all columns. -/
theorem idx_facts2 : ∀ t : Fin cfg2.N, win2_0.index t (0 : Fin 2) = win2_2.index t (0 : Fin 2)
    ∧ win2_0.index t (1 : Fin 2) = 0 ∧ win2_1.index t (0 : Fin 2) = win2_2.index t (0 : Fin 2)
    ∧ win2_1.index t (1 : Fin 2) = 0 ∧ win2_2.index t (1 : Fin 2) = 0 ∧ win2_2.index t (0 : Fin 2) = t.val :=
  (by decide +kernel : ∀ t : Fin grid2.N, _)

/-- What point t writes back is band t of lsmOut of the two arrays as the region finds them. -/
theorem flushed2_eq (c : Dev nD) (t : Fin cfg2.N) :
    (dat2 V c).flushed 2 t = ((cfg2.win 2).blk t).view.read (Elt Ideal) (lsmOut (V c main_v44) (V c main_v18)) := by
  show (cfg2.win 2).cut (grid2.coords t) ((dat2 V c).after 2 t) = _
  rw [after2_2]
  unfold out2_2
  rw [View.canon_unit_zero hz]
  simp only [View.ld_unit_zero (S := S2000x64) hz, View.ld_unit_zero (S := S2000x1) hz]
  rw [pay2_eq]
  obtain ⟨e0, e1, e2, e3, e4, e5⟩ := idx_facts2 t
  funext j
  refine lsm_band (V c main_v44) (V c main_v18) (iblk2 V c 0 t) (iblk2 V c 1 t) (win2_2.index t (0 : Fin 2) * 2000)
    (((cfg2.win 2).blk t).view.emb) ?_ ?_ ?_ ?_ j
  · intro y
    show win2_2.index t (0 : Fin 2) * 2000 + 1 * (y 0).val = _
    omega
  · intro y
    show win2_2.index t (1 : Fin 2) * 64 + 1 * (y 1).val = _
    omega
  · intro y
    show V c main_v44 (((cfg2.win 0).blk t).view.emb y) = V c main_v44 (((cfg2.win 2).blk t).view.emb y)
    refine congrArg (V c main_v44) (funext fun a => Fin.ext ?_)
    match a with
    | ⟨0, _⟩ => show win2_0.index t (0 : Fin 2) * 2000 + 1 * (y 0).val = win2_2.index t (0 : Fin 2) * 2000 + 1 * (y 0).val; omega
    | ⟨1, _⟩ => show win2_0.index t (1 : Fin 2) * 64 + 1 * (y 1).val = win2_2.index t (1 : Fin 2) * 64 + 1 * (y 1).val; omega
  · intro y
    show V c main_v18 (((cfg2.win 1).blk t).view.emb (ix2 ⟨(y 0).val, idx2_lt0 y⟩ (0 : Fin 1))) = _
    refine congrArg (V c main_v18) (funext fun a => Fin.ext ?_)
    match a with
    | ⟨0, _⟩ => show win2_1.index t (0 : Fin 2) * 2000 + 1 * (y 0).val = win2_2.index t (0 : Fin 2) * 2000 + 1 * (y 0).val; omega
    | ⟨1, _⟩ => show win2_1.index t (1 : Fin 2) * 1 + 1 * 0 = 0; omega

/-- An index of the array is in point t's band iff each coordinate is in the band's range on its axis. -/
theorem mem_blk2 (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v45).slice (win2_2.rect t)).set ↔ _
  rw [View.set_slice_whole, Rect.mem_set_unit]
  exact Iff.rfl

/-- The 25 bands cover the array: row r is in band r / 2000. -/
theorem cover2 (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  refine ⟨⟨(i 0).val / 2000, by show (i 0).val / 2000 < 25; omega⟩, flush2_2 _, ?_⟩
  rw [mem_blk2]
  obtain ⟨e0, e1, e2, e3, e4, e5⟩ := idx_facts2 ⟨(i 0).val / 2000, by show (i 0).val / 2000 < 25; omega⟩
  intro a
  match a with
  | ⟨0, _⟩ =>
    show win2_2.index _ (0 : Fin 2) * 2000 ≤ (i 0).val ∧ (i 0).val < win2_2.index _ (0 : Fin 2) * 2000 + 2000
    rw [e5]; show (i 0).val / 2000 * 2000 ≤ (i 0).val ∧ (i 0).val < (i 0).val / 2000 * 2000 + 2000; omega
  | ⟨1, _⟩ =>
    show win2_2.index _ (1 : Fin 2) * 64 ≤ (i 1).val ∧ (i 1).val < win2_2.index _ (1 : Fin 2) * 64 + 64
    rw [e4]; omega

/-- After the region the output array is lsmOut of the two arrays the region found. -/
theorem final2 (c : Dev nD) : (dat2 V c).arrAt 2 cfg2.N = lsmOut (V c main_v44) (V c main_v18) :=
  (dat2 V c).arrAt_eq_of_cover 2 _ (fun t _ => flushed2_eq V c t) (cover2)

end Region

end Cert.KernelIdeal.Blocks

end
-- ==== Proof.RegionDense.lean ====
/-
  The first two regions: a dense layer computed band by band, every row of the result scaled by its node's factor.

  Each region walks 25 bands of 2000 rows.  At a band it loads the band of its input array, the whole weight matrix
  (stored output-major, so entry (r, c) of the product is the sum over l of x (r, l) * w (c, l)), the one-row bias and
  the band of the node factors; it stores (x · wᵀ + b) with every row multiplied by its node's factor.  The second
  region first multiplies every input row by its node's factor and takes the maximum with zero.  A row of the result
  depends on the same row of the input and of the factors only, so a band of the result is the result of the band, and
  the 25 bands tile the 50000 rows.
-/
import proofs.«151475_j61306363183616_2_alg».proof.Proof.Gen.KernelIdeal.Frame
import proofs.«151475_j61306363183616_2_alg».proof.Proof.GcnNet
import proofs.«151475_j61306363183616_2_alg».proof.Proof.LibRowOps
import proofs.«151475_j61306363183616_2_alg».proof.Proof.RegionLsm
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx
open Idealize.ShloMosaic.Pipeline (Dat)
open GcnSpec Gcn

/-- x · wᵀ + b, every row then multiplied by its node's factor; the bias a one-row array, the factors a one-column array. -/
def denseScaled {n k q : ℕ} (x : Arr n k) (w : Arr q k) (b : Arr 1 q) (d : Arr n 1) : Arr n q :=
  fun i => ((∑ l : Fin k, x (ix2 ⟨(i 0).val, idx2_lt0 i⟩ l) * w (ix2 ⟨(i 1).val, idx2_lt1 i⟩ l))
    + b (ix2 (0 : Fin 1) ⟨(i 1).val, idx2_lt1 i⟩)) * d (ix2 ⟨(i 0).val, idx2_lt0 i⟩ (0 : Fin 1))

theorem denseScaled_ix2 {n k q : ℕ} (x : Arr n k) (w : Arr q k) (b : Arr 1 q) (d : Arr n 1) (r : Fin n) (c : Fin q) :
    denseScaled x w b d (ix2 r c) = ((∑ l : Fin k, x (ix2 r l) * w (ix2 c l)) + b (ix2 (0 : Fin 1) c)) * d (ix2 r (0 : Fin 1)) := rfl

/-- A matrix unit's product onto the zero accumulator, both operands contracted along their second axis, is the entry
    of x · wᵀ.  "hr", "hs": one axis of extent k is contracted.  "hl0" … "hr1": the left operand is read at (row of the
    result, contracted coordinate), the right operand at (column of the result, contracted coordinate). -/
theorem matmulT_zero_entry {n k q : ℕ} {φ₁ φ₂ : FTy}
    (d : DotDims (⟨2, ![n, k]⟩ : Shape) (⟨2, ![q, k]⟩ : Shape) (⟨2, ![n, q]⟩ : Shape)) (prec : Option ContractPrecision)
    (hr : d.contr.rank = 1) (hs : d.contr.size ⟨0, by omega⟩ = k)
    (hl0 : ∀ (j : (⟨2, ![n, q]⟩ : Shape).Idx) (c : d.contr.Idx), (d.lhsIdx j c 0).val = (j 0).val)
    (hl1 : ∀ (j : (⟨2, ![n, q]⟩ : Shape).Idx) (c : d.contr.Idx), (d.lhsIdx j c 1).val = (c ⟨0, by omega⟩).val)
    (hr0 : ∀ (j : (⟨2, ![n, q]⟩ : Shape).Idx) (c : d.contr.Idx), (d.rhsIdx j c 0).val = (j 1).val)
    (hr1 : ∀ (j : (⟨2, ![n, q]⟩ : Shape).Idx) (c : d.contr.Idx), (d.rhsIdx j c 1).val = (c ⟨0, by omega⟩).val)
    (lhs : FVec Ideal (⟨2, ![n, k]⟩ : Shape) φ₁) (rhs : FVec Ideal (⟨2, ![q, k]⟩ : Shape) φ₂) (p : Fin n) (c : Fin q) :
    FloatOps.matmul d prec lhs rhs (constant (F := Ideal) (⟨2, ![n, q]⟩ : Shape) .f32 0x00000000#32) (ix2 p c)
      = ∑ l : Fin k, lhs (ix2 p l) * rhs (ix2 c l) := by
  rw [Ideal.matmul_constant_zero_apply, ← Equiv.sum_comp (contrEquiv1 d k hr hs).symm]
  refine Finset.sum_congr rfl fun l _ => ?_
  have hk := contrEquiv1_symm_val d k hr hs l
  have el : d.lhsIdx (ix2 p c) ((contrEquiv1 d k hr hs).symm l) = ix2 p l := funext fun a => Fin.ext (by
    match a with
    | ⟨0, _⟩ => exact hl0 _ _
    | ⟨1, _⟩ => exact (hl1 _ _).trans hk)
  have er : d.rhsIdx (ix2 p c) ((contrEquiv1 d k hr hs).symm l) = ix2 c l := funext fun a => Fin.ext (by
    match a with
    | ⟨0, _⟩ => exact hr0 _ _
    | ⟨1, _⟩ => exact (hr1 _ _).trans hk)
  rw [el, er]

/-- A band of the result is the result of the band.  "e" sends an index of the band of the result to its index in the
    whole result; the band of the input and of the factors sit at the same rows; weight and bias are the whole arrays. -/
theorem dense_band {N n k q : ℕ} (X : Arr N k) (W : Arr q k) (B : Arr 1 q) (D : Arr N 1)
    (x0 : Arr n k) (w : Arr q k) (b : Arr 1 q) (x3 : Arr n 1)
    (e : (⟨2, ![n, q]⟩ : Shape).Idx → (⟨2, ![N, q]⟩ : Shape).Idx)
    (h1 : ∀ j, (e j 1).val = (j 1).val) (hw : w = W) (hb : b = B)
    (hx0 : ∀ (y : (⟨2, ![n, q]⟩ : Shape).Idx) (l : Fin k), x0 (ix2 ⟨(y 0).val, idx2_lt0 y⟩ l) = X (ix2 ⟨(e y 0).val, idx2_lt0 (e y)⟩ l))
    (hx3 : ∀ y : (⟨2, ![n, q]⟩ : Shape).Idx, x3 (ix2 ⟨(y 0).val, idx2_lt0 y⟩ (0 : Fin 1)) = D (ix2 ⟨(e y 0).val, idx2_lt0 (e y)⟩ (0 : Fin 1)))
    (j : (⟨2, ![n, q]⟩ : Shape).Idx) :
    denseScaled x0 w b x3 j = denseScaled X W B D (e j) := by
  rw [hw, hb]
  have hc : (⟨(e j 1).val, idx2_lt1 (e j)⟩ : Fin q) = ⟨(j 1).val, idx2_lt1 j⟩ := Fin.ext (h1 j)
  unfold denseScaled
  rw [hc, hx3 j]
  refine congrArg (fun s => (s + B (ix2 (0 : Fin 1) ⟨(j 1).val, idx2_lt1 j⟩)) * D (ix2 ⟨(e j 0).val, idx2_lt0 (e j)⟩ (0 : Fin 1))) ?_
  exact Finset.sum_congr rfl fun l _ => by rw [hx0 j l]

/-! ## The bodies' stored values at an index -/

theorem dot0_l0 (i : S2000x128.Idx) (q : dot_S2000x256_S128x256_S2000x128_1_1_0_0_n_n.contr.Idx) :
    (dot_S2000x256_S128x256_S2000x128_1_1_0_0_n_n.lhsIdx i q 0).val = (i 0).val := by
  unfold DotDims.lhsIdx
  rw [dif_neg (show ¬(0 : Fin S2000x256.rank) ∈ dot_S2000x256_S128x256_S2000x128_1_1_0_0_n_n.lhsBatch by decide), dif_pos (show (0 : Fin S2000x256.rank) ∈ dot_S2000x256_S128x256_S2000x128_1_1_0_0_n_n.lhsNonContracting by decide)]
  rfl
theorem dot0_r0 (i : S2000x128.Idx) (q : dot_S2000x256_S128x256_S2000x128_1_1_0_0_n_n.contr.Idx) :
    (dot_S2000x256_S128x256_S2000x128_1_1_0_0_n_n.rhsIdx i q 0).val = (i 1).val := by
  unfold DotDims.rhsIdx
  rw [dif_neg (show ¬(0 : Fin S128x256.rank) ∈ dot_S2000x256_S128x256_S2000x128_1_1_0_0_n_n.rhsBatch by decide), dif_pos (show (0 : Fin S128x256.rank) ∈ dot_S2000x256_S128x256_S2000x128_1_1_0_0_n_n.rhsNonContracting by decide)]
  rfl
theorem dot1_l0 (i : S2000x64.Idx) (q : dot_S2000x128_S64x128_S2000x64_1_1_0_0_n_n.contr.Idx) :
    (dot_S2000x128_S64x128_S2000x64_1_1_0_0_n_n.lhsIdx i q 0).val = (i 0).val := by
  unfold DotDims.lhsIdx
  rw [dif_neg (show ¬(0 : Fin S2000x128.rank) ∈ dot_S2000x128_S64x128_S2000x64_1_1_0_0_n_n.lhsBatch by decide), dif_pos (show (0 : Fin S2000x128.rank) ∈ dot_S2000x128_S64x128_S2000x64_1_1_0_0_n_n.lhsNonContracting by decide)]
  rfl
theorem dot1_r0 (i : S2000x64.Idx) (q : dot_S2000x128_S64x128_S2000x64_1_1_0_0_n_n.contr.Idx) :
    (dot_S2000x128_S64x128_S2000x64_1_1_0_0_n_n.rhsIdx i q 0).val = (i 1).val := by
  unfold DotDims.rhsIdx
  rw [dif_neg (show ¬(0 : Fin S64x128.rank) ∈ dot_S2000x128_S64x128_S2000x64_1_1_0_0_n_n.rhsBatch by decide), dif_pos (show (0 : Fin S64x128.rank) ∈ dot_S2000x128_S64x128_S2000x64_1_1_0_0_n_n.rhsNonContracting by decide)]
  rfl

/-- The first region's stored value at (p, c): the dense layer's entry times the node's factor. -/
theorem pay0_apply (x0 : Vec Ideal S2000x256 .f32) (x1 : Vec Ideal S128x256 .f32) (x2 : Vec Ideal S1x128 .f32)
    (x3 : Vec Ideal S2000x1 .f32) (p : Fin 2000) (c : Fin 128) :
    k0_pay1 x0 x1 x2 x3 (ix2 p c) = denseScaled x0 x1 x2 x3 (ix2 p c) := by
  unfold k0_pay1
  show (mulf (F := Ideal) (addf (matmul dot_S2000x256_S128x256_S2000x128_1_1_0_0_n_n none (truncf .bf16 x0 bitsLt_bf16_f32) (truncf .bf16 x1 bitsLt_bf16_f32) (constant S2000x128 .f32 0x00000000#32))
      (broadcastTo S2000x128 (shapeCast S1x128 x2 shapeCasts_S1x128_S1x128) broadcasts_S1x128_S2000x128))
      (broadcastTo S2000x128 (shapeCast S2000x1 x3 shapeCasts_S2000x1_S2000x1) broadcasts_S2000x1_S2000x128) : FVec Ideal S2000x128 .f32) (ix2 p c) = _
  rw [mulf_apply, addf_apply, RowCol.broadcastTo_a1_ab_apply, broadcastTo_1b_ab_apply, shapeCast_self, shapeCast_self]
  simp only [matmul]
  rw [matmulT_zero_entry _ none rfl rfl dot0_l0
    (fun i q => dot_S2000x256_S128x256_S2000x128_1_1_0_0_n_n.lhsIdx_val_of_single rfl i q) dot0_r0
    (fun i q => dot_S2000x256_S128x256_S2000x128_1_1_0_0_n_n.rhsIdx_val_of_single rfl i q)]
  rfl

/-- The second region's stored value at (p, c): the rows first scaled and cut at zero, then the dense layer's entry
    times the node's factor. -/
theorem pay1_apply (x0 : Vec Ideal S2000x128 .f32) (x3 : Vec Ideal S2000x1 .f32) (x1 : Vec Ideal S64x128 .f32)
    (x2 : Vec Ideal S1x64 .f32) (p : Fin 2000) (c : Fin 64) :
    k1_pay1 x0 x3 x1 x2 x3 (ix2 p c) = denseScaled (relu0 (scaled x3 x0)) x1 x2 x3 (ix2 p c) := by
  have hin : (maximumf (F := Ideal) (mulf (broadcastTo S2000x128 (shapeCast S2000x1 x3 shapeCasts_S2000x1_S2000x1) broadcasts_S2000x1_S2000x128)
      (shapeCast S2000x128 x0 shapeCasts_S2000x128_S2000x128)) (broadcast S2000x128 (Scalar.ofBits (F := Ideal) .f32 0x00000000#32)) : FVec Ideal S2000x128 .f32)
      = relu0 (scaled x3 x0) := by
    funext i
    obtain ⟨r, l, rfl⟩ : ∃ (r : Fin 2000) (l : Fin 128), i = ix2 r l := ⟨i 0, i 1, eq_ix2 i⟩
    rw [maximumf_apply, mulf_apply, broadcast_apply, RowCol.broadcastTo_a1_ab_apply, shapeCast_self, shapeCast_self]
    rfl
  unfold k1_pay1
  show (mulf (F := Ideal) (addf (matmul dot_S2000x128_S64x128_S2000x64_1_1_0_0_n_n none
        (truncf .bf16 (maximumf (F := Ideal) (mulf (broadcastTo S2000x128 (shapeCast S2000x1 x3 shapeCasts_S2000x1_S2000x1) broadcasts_S2000x1_S2000x128)
          (shapeCast S2000x128 x0 shapeCasts_S2000x128_S2000x128)) (broadcast S2000x128 (Scalar.ofBits (F := Ideal) .f32 0x00000000#32))) bitsLt_bf16_f32)
        (truncf .bf16 x1 bitsLt_bf16_f32) (constant S2000x64 .f32 0x00000000#32))
      (broadcastTo S2000x64 (shapeCast S1x64 x2 shapeCasts_S1x64_S1x64) broadcasts_S1x64_S2000x64))
      (broadcastTo S2000x64 (shapeCast S2000x1 x3 shapeCasts_S2000x1_S2000x1) broadcasts_S2000x1_S2000x64) : FVec Ideal S2000x64 .f32) (ix2 p c) = _
  rw [hin, mulf_apply, addf_apply, RowCol.broadcastTo_a1_ab_apply, broadcastTo_1b_ab_apply, shapeCast_self, shapeCast_self]
  simp only [matmul]
  rw [matmulT_zero_entry _ none rfl rfl dot1_l0
    (fun i q => dot_S2000x128_S64x128_S2000x64_1_1_0_0_n_n.lhsIdx_val_of_single rfl i q) dot1_r0
    (fun i q => dot_S2000x128_S64x128_S2000x64_1_1_0_0_n_n.rhsIdx_val_of_single rfl i q)]
  rfl

/-- The first region's band: its stored value at an index of the band is the whole-array function at the index's place
    in the whole array. -/
theorem dense0_band (X : Arr 50000 256) (W : Arr 128 256) (B : Arr 1 128) (D : Arr 50000 1)
    (x0 : Vec Ideal S2000x256 .f32) (x1 : Vec Ideal S128x256 .f32) (x2 : Vec Ideal S1x128 .f32) (x3 : Vec Ideal S2000x1 .f32)
    (e : (⟨2, ![2000, 128]⟩ : Shape).Idx → (⟨2, ![50000, 128]⟩ : Shape).Idx)
    (h1 : ∀ j, (e j 1).val = (j 1).val) (hw : x1 = W) (hb : x2 = B)
    (hx0 : ∀ (y : (⟨2, ![2000, 128]⟩ : Shape).Idx) (l : Fin 256), x0 (ix2 ⟨(y 0).val, idx2_lt0 y⟩ l) = X (ix2 ⟨(e y 0).val, idx2_lt0 (e y)⟩ l))
    (hx3 : ∀ y : (⟨2, ![2000, 128]⟩ : Shape).Idx, x3 (ix2 ⟨(y 0).val, idx2_lt0 y⟩ (0 : Fin 1)) = D (ix2 ⟨(e y 0).val, idx2_lt0 (e y)⟩ (0 : Fin 1)))
    (j : (⟨2, ![2000, 128]⟩ : Shape).Idx) :
    k0_pay1 x0 x1 x2 x3 j = denseScaled X W B D (e j) := by
  obtain ⟨p, q, rfl⟩ : ∃ (p : Fin 2000) (q : Fin 128), j = ix2 p q := ⟨j 0, j 1, eq_ix2 j⟩
  rw [pay0_apply]
  exact dense_band X W B D x0 x1 x2 x3 e h1 hw hb hx0 hx3 (ix2 p q)

/-- The second region's band, the input rows first scaled and cut at zero. -/
theorem dense1_band (A : Arr 50000 128) (W : Arr 64 128) (B : Arr 1 64) (D : Arr 50000 1)
    (x0 : Vec Ideal S2000x128 .f32) (x1 : Vec Ideal S64x128 .f32) (x2 : Vec Ideal S1x64 .f32) (x3 : Vec Ideal S2000x1 .f32)
    (e : (⟨2, ![2000, 64]⟩ : Shape).Idx → (⟨2, ![50000, 64]⟩ : Shape).Idx)
    (h1 : ∀ j, (e j 1).val = (j 1).val) (hw : x1 = W) (hb : x2 = B)
    (hx0 : ∀ (y : (⟨2, ![2000, 64]⟩ : Shape).Idx) (l : Fin 128), x0 (ix2 ⟨(y 0).val, idx2_lt0 y⟩ l) = A (ix2 ⟨(e y 0).val, idx2_lt0 (e y)⟩ l))
    (hx3 : ∀ y : (⟨2, ![2000, 64]⟩ : Shape).Idx, x3 (ix2 ⟨(y 0).val, idx2_lt0 y⟩ (0 : Fin 1)) = D (ix2 ⟨(e y 0).val, idx2_lt0 (e y)⟩ (0 : Fin 1)))
    (j : (⟨2, ![2000, 64]⟩ : Shape).Idx) :
    k1_pay1 x0 x3 x1 x2 x3 j = denseScaled (relu0 (scaled D A)) W B D (e j) := by
  obtain ⟨p, q, rfl⟩ : ∃ (p : Fin 2000) (q : Fin 64), j = ix2 p q := ⟨j 0, j 1, eq_ix2 j⟩
  rw [pay1_apply]
  refine dense_band (relu0 (scaled D A)) W B D (relu0 (scaled x3 x0)) x1 x2 x3 e h1 hw hb (fun y l => ?_) hx3 (ix2 p q)
  show max (x3 (ix2 ⟨(y 0).val, idx2_lt0 y⟩ (0 : Fin 1)) * x0 (ix2 ⟨(y 0).val, idx2_lt0 y⟩ l)) zeroF
    = max (D (ix2 ⟨(e y 0).val, idx2_lt0 (e y)⟩ (0 : Fin 1)) * A (ix2 ⟨(e y 0).val, idx2_lt0 (e y)⟩ l)) zeroF
  rw [hx0 y l, hx3 y]

section Region0
variable (V : (c : Dev nD) → (b : Ref sig .tc) → Buf (Elt Ideal) ((c : Thread nD τ).loc b))

/-- At point t the input, the factors and the output are at band t; weight and bias are the whole arrays. -/
theorem idx_facts0 : ∀ t : Fin cfg0.N, win0_0.index t (0 : Fin 2) = win0_4.index t (0 : Fin 2)
    ∧ win0_0.index t (1 : Fin 2) = 0 ∧ win0_1.index t (0 : Fin 2) = 0 ∧ win0_1.index t (1 : Fin 2) = 0
    ∧ win0_2.index t (0 : Fin 2) = 0 ∧ win0_2.index t (1 : Fin 2) = 0
    ∧ win0_3.index t (0 : Fin 2) = win0_4.index t (0 : Fin 2) ∧ win0_3.index t (1 : Fin 2) = 0
    ∧ win0_4.index t (1 : Fin 2) = 0 ∧ win0_4.index t (0 : Fin 2) = t.val :=
  (by decide +kernel : ∀ t : Fin grid0.N, _)

/-- What point t writes back is band t of the region's whole-array function of the arrays as the region finds them. -/
theorem flushed0_eq (c : Dev nD) (t : Fin cfg0.N) :
    (dat0 V c).flushed 4 t = ((cfg0.win 4).blk t).view.read (Elt Ideal) (denseScaled (V c main_arg0) (V c main_arg2) (V c main_v19) (V c main_v18)) := by
  show (cfg0.win 4).cut (grid0.coords t) ((dat0 V c).after 4 t) = _
  rw [after0_4]
  unfold out0_4
  rw [View.canon_unit_zero hz]
  simp only [View.ld_unit_zero (S := S2000x256) hz, View.ld_unit_zero (S := S128x256) hz, View.ld_unit_zero (S := S1x128) hz, View.ld_unit_zero (S := S2000x1) hz]
  obtain ⟨e0, e1, e2, e3, e4, e5, e6, e7, e8, e9⟩ := idx_facts0 t
  funext j
  refine dense0_band (V c main_arg0) (V c main_arg2) (V c main_v19) (V c main_v18) (iblk0 V c 0 t) (iblk0 V c 1 t) (iblk0 V c 2 t) (iblk0 V c 3 t)
    (((cfg0.win 4).blk t).view.emb) ?_ ?_ ?_ ?_ ?_ j
  · intro y
    show win0_4.index t (1 : Fin 2) * 128 + 1 * (y 1).val = _
    omega
  · funext y
    show V c main_arg2 (((cfg0.win 1).blk t).view.emb y) = V c main_arg2 y
    refine congrArg (V c main_arg2) (funext fun a => Fin.ext ?_)
    match a with
    | ⟨0, _⟩ => show win0_1.index t (0 : Fin 2) * 128 + 1 * (y 0).val = (y 0).val; omega
    | ⟨1, _⟩ => show win0_1.index t (1 : Fin 2) * 256 + 1 * (y 1).val = (y 1).val; omega
  · funext y
    show V c main_v19 (((cfg0.win 2).blk t).view.emb y) = V c main_v19 y
    refine congrArg (V c main_v19) (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  · intro y l
    show V c main_arg0 (((cfg0.win 0).blk t).view.emb (ix2 ⟨(y 0).val, idx2_lt0 y⟩ l)) = _
    refine congrArg (V c main_arg0) (funext fun a => Fin.ext ?_)
    match a with
    | ⟨0, _⟩ => show win0_0.index t (0 : Fin 2) * 2000 + 1 * (y 0).val = win0_4.index t (0 : Fin 2) * 2000 + 1 * (y 0).val; omega
    | ⟨1, _⟩ => show win0_0.index t (1 : Fin 2) * 256 + 1 * l.val = l.val; omega
  · intro y
    show V c main_v18 (((cfg0.win 3).blk t).view.emb (ix2 ⟨(y 0).val, idx2_lt0 y⟩ (0 : Fin 1))) = _
    refine congrArg (V c main_v18) (funext fun a => Fin.ext ?_)
    match a with
    | ⟨0, _⟩ => show win0_3.index t (0 : Fin 2) * 2000 + 1 * (y 0).val = win0_4.index t (0 : Fin 2) * 2000 + 1 * (y 0).val; omega
    | ⟨1, _⟩ => show win0_3.index t (1 : Fin 2) * 1 + 1 * 0 = 0; omega

/-- An index of the output array is in point t's band iff each coordinate is in the band's range on its axis. -/
theorem mem_blk0 (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v21).slice (win0_4.rect t)).set ↔ _
  rw [View.set_slice_whole, Rect.mem_set_unit]
  exact Iff.rfl

/-- The 25 bands cover the output array: row r is in band r / 2000. -/
theorem cover0 (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  refine ⟨⟨(i 0).val / 2000, by show (i 0).val / 2000 < 25; omega⟩, flush0_4 _, ?_⟩
  rw [mem_blk0]
  obtain ⟨e0, e1, e2, e3, e4, e5, e6, e7, e8, e9⟩ := idx_facts0 ⟨(i 0).val / 2000, by show (i 0).val / 2000 < 25; omega⟩
  intro a
  match a with
  | ⟨0, _⟩ =>
    show win0_4.index _ (0 : Fin 2) * 2000 ≤ (i 0).val ∧ (i 0).val < win0_4.index _ (0 : Fin 2) * 2000 + 2000
    rw [e9]; show (i 0).val / 2000 * 2000 ≤ (i 0).val ∧ (i 0).val < (i 0).val / 2000 * 2000 + 2000; omega
  | ⟨1, _⟩ =>
    show win0_4.index _ (1 : Fin 2) * 128 ≤ (i 1).val ∧ (i 1).val < win0_4.index _ (1 : Fin 2) * 128 + 128
    rw [e8]; omega

/-- After the region the output array is the region's whole-array function of the arrays it found. -/
theorem final0 (c : Dev nD) : (dat0 V c).arrAt 4 cfg0.N = denseScaled (V c main_arg0) (V c main_arg2) (V c main_v19) (V c main_v18) :=
  (dat0 V c).arrAt_eq_of_cover 4 _ (fun t _ => flushed0_eq V c t) (cover0)

end Region0

section Region1
variable (V : (c : Dev nD) → (b : Ref sig .tc) → Buf (Elt Ideal) ((c : Thread nD τ).loc b))

/-- At point t the input, the factors and the output are at band t; weight and bias are the whole arrays. -/
theorem idx_facts1 : ∀ t : Fin cfg1.N, win1_0.index t (0 : Fin 2) = win1_4.index t (0 : Fin 2)
    ∧ win1_0.index t (1 : Fin 2) = 0 ∧ win1_1.index t (0 : Fin 2) = 0 ∧ win1_1.index t (1 : Fin 2) = 0
    ∧ win1_2.index t (0 : Fin 2) = 0 ∧ win1_2.index t (1 : Fin 2) = 0
    ∧ win1_3.index t (0 : Fin 2) = win1_4.index t (0 : Fin 2) ∧ win1_3.index t (1 : Fin 2) = 0
    ∧ win1_4.index t (1 : Fin 2) = 0 ∧ win1_4.index t (0 : Fin 2) = t.val :=
  (by decide +kernel : ∀ t : Fin grid1.N, _)

/-- What point t writes back is band t of the region's whole-array function of the arrays as the region finds them. -/
theorem flushed1_eq (c : Dev nD) (t : Fin cfg1.N) :
    (dat1 V c).flushed 4 t = ((cfg1.win 4).blk t).view.read (Elt Ideal) (denseScaled (relu0 (scaled (V c main_v18) (V c main_v32))) (V c main_arg4) (V c main_v20) (V c main_v18)) := by
  show (cfg1.win 4).cut (grid1.coords t) ((dat1 V c).after 4 t) = _
  rw [after1_4]
  unfold out1_4
  rw [View.canon_unit_zero hz]
  simp only [View.ld_unit_zero (S := S2000x128) hz, View.ld_unit_zero (S := S64x128) hz, View.ld_unit_zero (S := S1x64) hz, View.ld_unit_zero (S := S2000x1) hz]
  obtain ⟨e0, e1, e2, e3, e4, e5, e6, e7, e8, e9⟩ := idx_facts1 t
  funext j
  refine dense1_band (V c main_v32) (V c main_arg4) (V c main_v20) (V c main_v18) (iblk1 V c 0 t) (iblk1 V c 1 t) (iblk1 V c 2 t) (iblk1 V c 3 t)
    (((cfg1.win 4).blk t).view.emb) ?_ ?_ ?_ ?_ ?_ j
  · intro y
    show win1_4.index t (1 : Fin 2) * 64 + 1 * (y 1).val = _
    omega
  · funext y
    show V c main_arg4 (((cfg1.win 1).blk t).view.emb y) = V c main_arg4 y
    refine congrArg (V c main_arg4) (funext fun a => Fin.ext ?_)
    match a with
    | ⟨0, _⟩ => show win1_1.index t (0 : Fin 2) * 64 + 1 * (y 0).val = (y 0).val; omega
    | ⟨1, _⟩ => show win1_1.index t (1 : Fin 2) * 128 + 1 * (y 1).val = (y 1).val; omega
  · funext y
    show V c main_v20 (((cfg1.win 2).blk t).view.emb y) = V c main_v20 y
    refine congrArg (V c main_v20) (funext fun a => Fin.ext ?_)
    match a with
    | ⟨0, _⟩ => show win1_2.index t (0 : Fin 2) * 1 + 1 * (y 0).val = (y 0).val; omega
    | ⟨1, _⟩ => show win1_2.index t (1 : Fin 2) * 64 + 1 * (y 1).val = (y 1).val; omega
  · intro y l
    show V c main_v32 (((cfg1.win 0).blk t).view.emb (ix2 ⟨(y 0).val, idx2_lt0 y⟩ l)) = _
    refine congrArg (V c main_v32) (funext fun a => Fin.ext ?_)
    match a with
    | ⟨0, _⟩ => show win1_0.index t (0 : Fin 2) * 2000 + 1 * (y 0).val = win1_4.index t (0 : Fin 2) * 2000 + 1 * (y 0).val; omega
    | ⟨1, _⟩ => show win1_0.index t (1 : Fin 2) * 128 + 1 * l.val = l.val; omega
  · intro y
    show V c main_v18 (((cfg1.win 3).blk t).view.emb (ix2 ⟨(y 0).val, idx2_lt0 y⟩ (0 : Fin 1))) = _
    refine congrArg (V c main_v18) (funext fun a => Fin.ext ?_)
    match a with
    | ⟨0, _⟩ => show win1_3.index t (0 : Fin 2) * 2000 + 1 * (y 0).val = win1_4.index t (0 : Fin 2) * 2000 + 1 * (y 0).val; omega
    | ⟨1, _⟩ => show win1_3.index t (1 : Fin 2) * 1 + 1 * 0 = 0; omega

/-- An index of the output array is in point t's band iff each coordinate is in the band's range on its axis. -/
theorem mem_blk1 (t : Fin cfg1.N) (i : S50000x64.Idx) :
    i ∈ ((cfg1.win 4).blk t).view.set ↔ ∀ a : Fin 2, win1_4.index t a * S2000x64.size a ≤ (i a).val ∧ (i a).val < win1_4.index t a * S2000x64.size a + S2000x64.size a := by
  show i ∈ ((View.whole main_v33).slice (win1_4.rect t)).set ↔ _
  rw [View.set_slice_whole, Rect.mem_set_unit]
  exact Iff.rfl

/-- The 25 bands cover the output array: row r is in band r / 2000. -/
theorem cover1 (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  refine ⟨⟨(i 0).val / 2000, by show (i 0).val / 2000 < 25; omega⟩, flush1_4 _, ?_⟩
  rw [mem_blk1]
  obtain ⟨e0, e1, e2, e3, e4, e5, e6, e7, e8, e9⟩ := idx_facts1 ⟨(i 0).val / 2000, by show (i 0).val / 2000 < 25; omega⟩
  intro a
  match a with
  | ⟨0, _⟩ =>
    show win1_4.index _ (0 : Fin 2) * 2000 ≤ (i 0).val ∧ (i 0).val < win1_4.index _ (0 : Fin 2) * 2000 + 2000
    rw [e9]; show (i 0).val / 2000 * 2000 ≤ (i 0).val ∧ (i 0).val < (i 0).val / 2000 * 2000 + 2000; omega
  | ⟨1, _⟩ =>
    show win1_4.index _ (1 : Fin 2) * 64 ≤ (i 1).val ∧ (i 1).val < win1_4.index _ (1 : Fin 2) * 64 + 64
    rw [e8]; omega

/-- After the region the output array is the region's whole-array function of the arrays it found. -/
theorem final1 (c : Dev nD) : (dat1 V c).arrAt 4 cfg1.N = denseScaled (relu0 (scaled (V c main_v18) (V c main_v32))) (V c main_arg4) (V c main_v20) (V c main_v18) :=
  (dat1 V c).arrAt_eq_of_cover 4 _ (fun t _ => flushed1_eq V c t) (cover1)

end Region1

end Cert.KernelIdeal.Blocks

end
-- ==== Proof.KernelValue.lean ====
/-
  What the kernel program's result buffer holds at the return: the network of GcnNet, first arrangement.

  The run's boundaries are walked one at a time.  A region leaves its output array at its whole-array function of the
  arrays it found (the region modules) and every other buffer as it found it; a stretch of host operations writes its
  own results and leaves the rest.  The edge ends and the node factors are computed once, before the first region, and
  only read afterwards, so they are the same terms at every boundary.  Put together, the result is: dense layer with
  rows scaled by the node factors, gather at the sources and add at the targets, scale by the factors and cut at zero,
  dense layer with rows scaled, gather and add again, scale, logarithm of the softmax of every row — which is netK.
-/
import proofs.«151475_j61306363183616_2_alg».proof.Proof.HostTerms
import proofs.«151475_j61306363183616_2_alg».proof.Proof.RegionDense
import proofs.«151475_j61306363183616_2_alg».proof.Proof.RegionLsm
import proofs.«151475_j61306363183616_2_alg».proof.Proof.GcnNet
import proofs.«151475_j61306363183616_2_alg».proof.Proof.LibRowCol

set_option maxRecDepth 16384

noncomputable section

open scoped BigOperators

namespace Cert.KernelIdeal.Walk

open Cert.KernelIdeal Cert.KernelIdeal.Gen Cert.KernelIdeal.Blocks Idealize.ShloMosaic Idealize.ShloMosaic.TcCoe Idealize.ShloMosaic.ValueIdx
open Idealize.ShloMosaic.StableHlo Idealize.SL.Sem GcnSpec Gcn

section Run
variable (m : (ℓ : Loc nD τ sig) → Buf (Elt Ideal) ℓ) (ρ : Dev nD → PrngReg) (c : Dev nD)

/-! ## The second boundary: after the first region -/

theorem W2_v3 : W2 m ρ c (Proc.devRef .tc main_v3) = rowK (m ((c.tc : Thread nD τ).loc main_arg1)) :=
  (W2_of_ne m ρ c main_v3 (by decide)).trans (W1_v3 m ρ c)
theorem W2_v6 : W2 m ρ c (Proc.devRef .tc main_v6) = colK (m ((c.tc : Thread nD τ).loc main_arg1)) :=
  (W2_of_ne m ρ c main_v6 (by decide)).trans (W1_v6 m ρ c)
theorem W2_arg4 : W2 m ρ c (Proc.devRef .tc main_arg4) = m ((c.tc : Thread nD τ).loc main_arg4) :=
  (W2_of_ne m ρ c main_arg4 (by decide)).trans (W1_arg4 m ρ c)
theorem W2_v20 : W2 m ρ c (Proc.devRef .tc main_v20)
    = shapeCast S1x64 (m ((c.tc : Thread nD τ).loc main_arg5)) shapeCasts_S64_S1x64 :=
  (W2_of_ne m ρ c main_v20 (by decide)).trans (W1_v20 m ρ c)
theorem W2_v18 : W2 m ρ c (Proc.devRef .tc main_v18)
    = shapeCast S50000x1 (disK (m ((c.tc : Thread nD τ).loc main_arg1))) shapeCasts_S50000_S50000x1 :=
  ((W2_arr m ρ c 3).trans (((dat0 (V1 m ρ) c).arrAt_in 3 rfl _).trans (A_eq0 (V1 m ρ) c 3))).trans (W1_v18 m ρ c)

/-- The first region's output: the dense layer of the node features, every row scaled by its node's factor. -/
theorem W2_v21 : W2 m ρ c (Proc.devRef .tc main_v21)
    = denseScaled (m ((c.tc : Thread nD τ).loc main_arg0)) (m ((c.tc : Thread nD τ).loc main_arg2))
        (shapeCast S1x128 (m ((c.tc : Thread nD τ).loc main_arg3)) shapeCasts_S128_S1x128)
        (shapeCast S50000x1 (disK (m ((c.tc : Thread nD τ).loc main_arg1))) shapeCasts_S50000_S50000x1) := by
  refine (W2_arr m ρ c 4).trans ((final0 (V1 m ρ) c).trans ?_)
  show denseScaled (W1 m ρ c (Proc.devRef .tc main_arg0)) (W1 m ρ c (Proc.devRef .tc main_arg2))
    (W1 m ρ c (Proc.devRef .tc main_v19)) (W1 m ρ c (Proc.devRef .tc main_v18)) = _
  rw [W1_arg0, W1_arg2, W1_v19, W1_v18]

/-! ## The third boundary: after the second stretch of host operations -/

/-- One round of gathering rows at the sources and adding them up at the targets, as the host spells it (128 columns). -/
def roundH (a1 : IVec S2x800000 32) (h : FVec Ideal S50000x128 .bf16) : FVec Ideal S50000x128 .f32 :=
  Host.scatterAdd scatter_S50000x128_S850000x1_S850000x128_1_0_0_1
    (broadcastInDim S50000x128 ![] bcast_S_S50000x128 (constant (F := Ideal) S_ .f32 0x00000000#32)) (dstK a1)
    (extf .f32 (Host.gather gather_S50000x128_S850000x1_S850000x128_1_0_n_n_0_1_1128 h (srcK a1)) bitsLt_bf16_f32)

/-- The same with 64 columns. -/
def roundO (a1 : IVec S2x800000 32) (h : FVec Ideal S50000x64 .bf16) : FVec Ideal S50000x64 .f32 :=
  Host.scatterAdd scatter_S50000x64_S850000x1_S850000x64_1_0_0_1
    (broadcastInDim S50000x64 ![] bcast_S_S50000x64 (constant (F := Ideal) S_ .f32 0x00000000#32)) (dstK a1)
    (extf .f32 (Host.gather gather_S50000x64_S850000x1_S850000x64_1_0_n_n_0_1_164 h (srcK a1)) bitsLt_bf16_f32)

theorem W3_v32_raw : W3 m ρ c (Proc.devRef .tc main_v32)
    = Host.scatterAdd scatter_S50000x128_S850000x1_S850000x128_1_0_0_1
        (broadcastInDim S50000x128 ![] bcast_S_S50000x128 (constant (F := Ideal) S_ .f32 0x00000000#32))
        (broadcastInDim S850000x1 ![0] bcast_S850000_S850000x1_0 (W2 m ρ c (Proc.devRef .tc main_v6)))
        (extf .f32 (Host.gather gather_S50000x128_S850000x1_S850000x128_1_0_n_n_0_1_1128 (W2 m ρ c (Proc.devRef .tc main_v21))
          (broadcastInDim S850000x1 ![0] bcast_S850000_S850000x1_0 (wrapK (W2 m ρ c (Proc.devRef .tc main_v3))))) bitsLt_bf16_f32) := by
  show StableHlo.after hostOps1 (W2 m ρ c) (Proc.devRef .tc main_v32) = _
  after_results
  rfl

theorem W3_v32 : W3 m ρ c (Proc.devRef .tc main_v32)
    = roundH (m ((c.tc : Thread nD τ).loc main_arg1)) (W2 m ρ c (Proc.devRef .tc main_v21)) := by
  rw [W3_v32_raw, W2_v6, W2_v3]
  rfl

theorem W3_v18 : W3 m ρ c (Proc.devRef .tc main_v18)
    = shapeCast S50000x1 (disK (m ((c.tc : Thread nD τ).loc main_arg1))) shapeCasts_S50000_S50000x1 := by
  refine Eq.trans ?_ (W2_v18 m ρ c)
  show StableHlo.after hostOps1 (W2 m ρ c) (Proc.devRef .tc main_v18) = _
  after_results
theorem W3_arg4 : W3 m ρ c (Proc.devRef .tc main_arg4) = m ((c.tc : Thread nD τ).loc main_arg4) := by
  refine Eq.trans ?_ (W2_arg4 m ρ c)
  show StableHlo.after hostOps1 (W2 m ρ c) (Proc.devRef .tc main_arg4) = _
  after_results
theorem W3_v20 : W3 m ρ c (Proc.devRef .tc main_v20)
    = shapeCast S1x64 (m ((c.tc : Thread nD τ).loc main_arg5)) shapeCasts_S64_S1x64 := by
  refine Eq.trans ?_ (W2_v20 m ρ c)
  show StableHlo.after hostOps1 (W2 m ρ c) (Proc.devRef .tc main_v20) = _
  after_results
theorem W3_v3 : W3 m ρ c (Proc.devRef .tc main_v3) = rowK (m ((c.tc : Thread nD τ).loc main_arg1)) := by
  refine Eq.trans ?_ (W2_v3 m ρ c)
  show StableHlo.after hostOps1 (W2 m ρ c) (Proc.devRef .tc main_v3) = _
  after_results
theorem W3_v6 : W3 m ρ c (Proc.devRef .tc main_v6) = colK (m ((c.tc : Thread nD τ).loc main_arg1)) := by
  refine Eq.trans ?_ (W2_v6 m ρ c)
  show StableHlo.after hostOps1 (W2 m ρ c) (Proc.devRef .tc main_v6) = _
  after_results

/-! ## The fourth boundary: after the second region -/

theorem W4_v3 : W4 m ρ c (Proc.devRef .tc main_v3) = rowK (m ((c.tc : Thread nD τ).loc main_arg1)) :=
  (W4_of_ne m ρ c main_v3 (by decide)).trans (W3_v3 m ρ c)
theorem W4_v6 : W4 m ρ c (Proc.devRef .tc main_v6) = colK (m ((c.tc : Thread nD τ).loc main_arg1)) :=
  (W4_of_ne m ρ c main_v6 (by decide)).trans (W3_v6 m ρ c)
theorem W4_v18 : W4 m ρ c (Proc.devRef .tc main_v18)
    = shapeCast S50000x1 (disK (m ((c.tc : Thread nD τ).loc main_arg1))) shapeCasts_S50000_S50000x1 :=
  ((W4_arr m ρ c 3).trans (((dat1 (V3 m ρ) c).arrAt_in 3 rfl _).trans (A_eq1 (V3 m ρ) c 3))).trans (W3_v18 m ρ c)

/-- The second region's output: scale the first round's sums and cut at zero, dense layer, rows scaled again. -/
theorem W4_v33 : W4 m ρ c (Proc.devRef .tc main_v33)
    = denseScaled (relu0 (scaled (shapeCast S50000x1 (disK (m ((c.tc : Thread nD τ).loc main_arg1))) shapeCasts_S50000_S50000x1)
          (roundH (m ((c.tc : Thread nD τ).loc main_arg1)) (W2 m ρ c (Proc.devRef .tc main_v21)))))
        (m ((c.tc : Thread nD τ).loc main_arg4)) (shapeCast S1x64 (m ((c.tc : Thread nD τ).loc main_arg5)) shapeCasts_S64_S1x64)
        (shapeCast S50000x1 (disK (m ((c.tc : Thread nD τ).loc main_arg1))) shapeCasts_S50000_S50000x1) := by
  refine (W4_arr m ρ c 4).trans ((final1 (V3 m ρ) c).trans ?_)
  show denseScaled (relu0 (scaled (W3 m ρ c (Proc.devRef .tc main_v18)) (W3 m ρ c (Proc.devRef .tc main_v32))))
    (W3 m ρ c (Proc.devRef .tc main_arg4)) (W3 m ρ c (Proc.devRef .tc main_v20)) (W3 m ρ c (Proc.devRef .tc main_v18)) = _
  rw [W3_v18, W3_v32, W3_arg4, W3_v20]

/-! ## The fifth boundary: after the third stretch of host operations -/

theorem W5_v44_raw : W5 m ρ c (Proc.devRef .tc main_v44)
    = Host.scatterAdd scatter_S50000x64_S850000x1_S850000x64_1_0_0_1
        (broadcastInDim S50000x64 ![] bcast_S_S50000x64 (constant (F := Ideal) S_ .f32 0x00000000#32))
        (broadcastInDim S850000x1 ![0] bcast_S850000_S850000x1_0 (W4 m ρ c (Proc.devRef .tc main_v6)))
        (extf .f32 (Host.gather gather_S50000x64_S850000x1_S850000x64_1_0_n_n_0_1_164 (W4 m ρ c (Proc.devRef .tc main_v33))
          (broadcastInDim S850000x1 ![0] bcast_S850000_S850000x1_0 (wrapK (W4 m ρ c (Proc.devRef .tc main_v3))))) bitsLt_bf16_f32) := by
  show StableHlo.after hostOps2 (W4 m ρ c) (Proc.devRef .tc main_v44) = _
  after_results
  rfl

theorem W5_v44 : W5 m ρ c (Proc.devRef .tc main_v44)
    = roundO (m ((c.tc : Thread nD τ).loc main_arg1)) (W4 m ρ c (Proc.devRef .tc main_v33)) := by
  rw [W5_v44_raw, W4_v6, W4_v3]
  rfl

theorem W5_v18 : W5 m ρ c (Proc.devRef .tc main_v18)
    = shapeCast S50000x1 (disK (m ((c.tc : Thread nD τ).loc main_arg1))) shapeCasts_S50000_S50000x1 := by
  refine Eq.trans ?_ (W4_v18 m ρ c)
  show StableHlo.after hostOps2 (W4 m ρ c) (Proc.devRef .tc main_v18) = _
  after_results

/-! ## The last boundary: after the third region -/

theorem W6_v45 : W6 m ρ c (Proc.devRef .tc main_v45)
    = lsmOut (roundO (m ((c.tc : Thread nD τ).loc main_arg1)) (W4 m ρ c (Proc.devRef .tc main_v33)))
        (shapeCast S50000x1 (disK (m ((c.tc : Thread nD τ).loc main_arg1))) shapeCasts_S50000_S50000x1) := by
  refine (W6_arr m ρ c 2).trans ((final2 (V5 m ρ) c).trans ?_)
  show lsmOut (W5 m ρ c (Proc.devRef .tc main_v44)) (W5 m ρ c (Proc.devRef .tc main_v18)) = _
  rw [W5_v44, W5_v18]

end Run

/-! ## From the programs' spellings to the network's layers -/

/-- Scaling by the factors held as one column is scaling by the factors. -/
theorem scaled_col {n k : ℕ} (d : Vecr n) (h : (⟨1, ![n]⟩ : Shape).ShapeCasts ⟨2, ![n, 1]⟩) (a : Arr n k) :
    scaled (shapeCast ⟨2, ![n, 1]⟩ d h) a = scaleRows d a := by
  funext i
  obtain ⟨r, l, rfl⟩ : ∃ (r : Fin n) (l : Fin k), i = ix2 r l := ⟨i 0, i 1, eq_ix2 i⟩
  rw [scaled_ix2, scaleRows_ix2, RowCol.shapeCast_a_a1_apply]

/-- The region's dense layer, bias as one row and factors as one column, is the network's dense layer with its rows
    scaled. -/
theorem denseScaled_views {n k q : ℕ} (x : Arr n k) (w : Arr q k) (b : Vecr q) (d : Vecr n)
    (hb : (⟨1, ![q]⟩ : Shape).ShapeCasts ⟨2, ![1, q]⟩) (hd : (⟨1, ![n]⟩ : Shape).ShapeCasts ⟨2, ![n, 1]⟩) :
    denseScaled x w (shapeCast ⟨2, ![1, q]⟩ b hb) (shapeCast ⟨2, ![n, 1]⟩ d hd) = scaleRows d (dense x w b) := by
  funext i
  obtain ⟨r, l, rfl⟩ : ∃ (r : Fin n) (l : Fin q), i = ix2 r l := ⟨i 0, i 1, eq_ix2 i⟩
  rw [denseScaled_ix2, scaleRows_ix2, dense_ix2, RowCol.shapeCast_a_a1_apply, shapeCast_a_1a_apply, mul_comm]

/-- The host's round with 128 columns is the library's scatter-add, from zeros, of the gathered rows. -/
theorem roundH_eq (a1 : IVec S2x800000 32) (h : Arr 50000 128) :
    roundH a1 h = Ideal.hostScatterAdd scatter_S50000x128_S850000x1_S850000x128_1_0_0_1 (zeros : Arr 50000 128) (dstK a1)
      (Host.gather gather_S50000x128_S850000x1_S850000x128_1_0_n_n_0_1_1128 h (srcK a1)) := by
  have hz0 : (broadcastInDim S50000x128 ![] bcast_S_S50000x128 (constant (F := Ideal) S_ .f32 0x00000000#32) : FVec Ideal S50000x128 .f32)
      = (zeros : Arr 50000 128) := by
    funext i
    rw [broadcastInDim_apply _ bcast_S_S50000x128 _ i ix0 (fun a => a.elim0), constant_apply]
    rfl
  unfold roundH
  show Ideal.hostScatterAdd _ _ _ _ = _
  rw [hz0]
  rfl

/-- The same with 64 columns. -/
theorem roundO_eq (a1 : IVec S2x800000 32) (h : Arr 50000 64) :
    roundO a1 h = Ideal.hostScatterAdd scatter_S50000x64_S850000x1_S850000x64_1_0_0_1 (zeros : Arr 50000 64) (dstK a1)
      (Host.gather gather_S50000x64_S850000x1_S850000x64_1_0_n_n_0_1_164 h (srcK a1)) := by
  have hz0 : (broadcastInDim S50000x64 ![] bcast_S_S50000x64 (constant (F := Ideal) S_ .f32 0x00000000#32) : FVec Ideal S50000x64 .f32)
      = (zeros : Arr 50000 64) := by
    funext i
    rw [broadcastInDim_apply _ bcast_S_S50000x64 _ i ix0 (fun a => a.elim0), constant_apply]
    rfl
  unfold roundO
  show Ideal.hostScatterAdd _ _ _ _ = _
  rw [hz0]
  rfl

/-- THE KERNEL PROGRAM'S RESULT: the network, first arrangement, of the arguments' launch contents. -/
theorem kernel_value (m : (ℓ : Loc nD τ sig) → Buf (Elt Ideal) ℓ) (ρ : Dev nD → PrngReg) (c : Dev nD) :
    W6 m ρ c (Proc.devRef .tc main_v45)
      = netK gather_S50000x128_S850000x1_S850000x128_1_0_n_n_0_1_1128 scatter_S50000x128_S850000x1_S850000x128_1_0_0_1
          gather_S50000x64_S850000x1_S850000x64_1_0_n_n_0_1_164 scatter_S50000x64_S850000x1_S850000x64_1_0_0_1
          (disK (m ((c.tc : Thread nD τ).loc main_arg1))) (srcK (m ((c.tc : Thread nD τ).loc main_arg1)))
          (dstK (m ((c.tc : Thread nD τ).loc main_arg1)))
          (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5)) := by
  rw [W6_v45, W4_v33, W2_v21]
  unfold lsmOut netK aggK
  rw [scaled_col, denseScaled_views, scaled_col, denseScaled_views, roundO_eq, roundH_eq]

end Cert.KernelIdeal.Walk

end
-- ==== Proof.RefNet.lean ====
/-
  The reference program's result as the network of the specification.

  The reference computes, from the edge list, the inverse square root of every node's degree, the array of edge sources
  (self loops appended, negative numbers wrapped) and two arrays of edge targets (wrapped for the gathers, not wrapped
  for the scatters); then two rounds of "dense layer, weight every gathered message by the product of the factors of
  its edge's ends, add up at the target", a maximum with zero between them and the logarithm of the softmax of every
  row at the end.  Each value of the program is read here as the corresponding function of the specification, array
  by array; gathers and scatters stay the host's functions of their integer arrays.
-/
import proofs.«151475_j61306363183616_2_alg».proof.Proof.RefReadP
import proofs.«151475_j61306363183616_2_alg».proof.Proof.GcnNet
import proofs.«151475_j61306363183616_2_alg».proof.Proof.LibRowOps
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.ReferenceIdeal.RefNet

open Cert.ReferenceIdeal Cert.ReferenceIdeal.Gen Cert.ReferenceIdeal.ReadP Idealize.ShloMosaic
  Idealize.ShloMosaic.ValueIdx GcnSpec

/-! ## The arguments' types -/

abbrev A0 : Type := (⟨S50000x256, .f32⟩ : BufTy).Contents (Elt Ideal)
abbrev A1 : Type := (⟨S2x800000, .i32⟩ : BufTy).Contents (Elt Ideal)
abbrev A2 : Type := (⟨S128x256, .f32⟩ : BufTy).Contents (Elt Ideal)
abbrev A3 : Type := (⟨S128, .f32⟩ : BufTy).Contents (Elt Ideal)
abbrev A4 : Type := (⟨S64x128, .f32⟩ : BufTy).Contents (Elt Ideal)
abbrev A5 : Type := (⟨S64, .f32⟩ : BufTy).Contents (Elt Ideal)

/-! ## The graph's arrays, as functions of the edge list -/

/-- The factor of every node: its degree (self loop counted) to the power minus one half. -/
def disOf (a1 : A1) : Gcn.Vecr 50000 := val_main_v17 (F := Ideal) a1
/-- The source of every edge, self loops appended, a negative number moved up by the number of nodes. -/
def srcOf (a1 : A1) : Gcn.Ends 850000 := val_main_v23 (F := Ideal) a1
/-- The target of every edge, self loops appended, a negative number moved up by the number of nodes. -/
def dstwOf (a1 : A1) : Gcn.Ends 850000 := val_main_v30 (F := Ideal) a1
/-- The target of every edge, self loops appended, as the edge list holds it. -/
def dstOf (a1 : A1) : Gcn.Ends 850000 := val_main_v49 (F := Ideal) a1

/-- The program recomputes the array of sources before each gather of rows: the same function. -/
theorem v44_eq (a1 : A1) : val_main_v44 (F := Ideal) a1 = srcOf a1 := rfl
theorem v63_eq (a1 : A1) : val_main_v63 (F := Ideal) a1 = srcOf a1 := rfl
/-- And the array of targets before each scatter. -/
theorem v68_eq (a1 : A1) : val_main_v68 (F := Ideal) a1 = dstOf a1 := rfl

/-! ## The first layer -/

/-- x times the transposed weight, plus the bias broadcast over the rows, is the dense layer. -/
theorem v37_eq (a0 : A0) (a2 : A2) (a3 : A3) :
    val_main_v37 (F := Ideal) a0 a2 a3 = Gcn.dense (n := 50000) (k := 256) (q := 128) a0 a2 a3 := by
  funext i
  obtain ⟨r, c, rfl⟩ : ∃ (r : Fin 50000) (c : Fin 128), i = ix2 r c := ⟨i 0, i 1, eq_ix2 i⟩
  rw [val_main_v37_apply, val_main_v34_apply, val_main_v36_apply, val_main_v35_apply, Gcn.dense_ix2, Ideal.addf_def]
  refine congrArg₂ (· + ·) (Finset.sum_congr rfl fun l _ => ?_)
    (congrArg a3 (funext fun a => Fin.ext (by match a with | ⟨0, _⟩ => rfl)))
  rw [val_main_v33_apply]
  exact congrArg₂ (· * ·)
    (congrArg a0 (funext fun a => Fin.ext (by match a with | ⟨0, _⟩ => rfl | ⟨1, _⟩ => rfl)))
    (congrArg a2 (funext fun a => Fin.ext (by match a with | ⟨0, _⟩ => rfl | ⟨1, _⟩ => rfl)))

/-- The product of the two gathered factors is the edge's weight. -/
theorem v32_eq (a1 : A1) :
    val_main_v32 (F := Ideal) a1
      = Gcn.edgeWeight gather_S50000_S850000x1_S850000_n_0_n_n_0_1_1 (disOf a1) (srcOf a1) (dstwOf a1) := rfl

/-- The weighted messages of the first round. -/
theorem v47_eq (a0 : A0) (a1 : A1) (a2 : A2) (a3 : A3) :
    val_main_v47 (F := Ideal) a0 a1 a2 a3
      = fun j => Gcn.edgeWeight gather_S50000_S850000x1_S850000_n_0_n_n_0_1_1 (disOf a1) (srcOf a1) (dstwOf a1)
            (ix1 ⟨(j 0).val, idx2_lt0 j⟩)
          * Host.gather gather_S50000x128_S850000x1_S850000x128_1_0_n_n_0_1_1128
              (Gcn.dense (n := 50000) (k := 256) (q := 128) a0 a2 a3) (srcOf a1) j := by
  funext j
  beta_reduce
  rw [val_main_v47_apply, val_main_v46_apply, val_main_v38_apply, v32_eq, Ideal.mulf_def]
  unfold val_main_v45
  rw [v37_eq, v44_eq]
  exact congrArg₂ (· * ·)
    (congrArg _ (funext fun a => Fin.ext (by match a with | ⟨0, _⟩ => rfl))) rfl

/-- The zero array the first scatter starts from. -/
theorem v48_eq : val_main_v48 (F := Ideal) = (Gcn.zeros : Arr 50000 128) := by
  funext i
  rw [val_main_v48_apply, val_main_cst_9_apply]
  rfl

/-- The first round. -/
theorem v50_eq (a0 : A0) (a1 : A1) (a2 : A2) (a3 : A3) :
    val_main_v50 (F := Ideal) a0 a1 a2 a3
      = Gcn.aggR gather_S50000_S850000x1_S850000_n_0_n_n_0_1_1 gather_S50000x128_S850000x1_S850000x128_1_0_n_n_0_1_1128
          scatter_S50000x128_S850000x1_S850000x128_1_0_0_1 (disOf a1) (srcOf a1) (dstwOf a1) (dstOf a1)
          (Gcn.dense (n := 50000) (k := 256) (q := 128) a0 a2 a3) := by
  unfold val_main_v50 Host.scatterAdd Gcn.aggR
  rw [Ideal.hostScatterAdd_def, v48_eq, v47_eq]
  rfl

/-- The maximum with the broadcast zero. -/
theorem v51_eq (a0 : A0) (a1 : A1) (a2 : A2) (a3 : A3) :
    val_main_v51 (F := Ideal) a0 a1 a2 a3 = Gcn.relu0 (val_main_v50 (F := Ideal) a0 a1 a2 a3) := by
  funext i
  rw [val_main_v51_apply, val_main_call0_v0_apply, val_main_call0_cst_apply]
  rfl

/-! ## The second layer -/

theorem v56_eq (a0 : A0) (a1 : A1) (a2 : A2) (a3 : A3) (a4 : A4) (a5 : A5) :
    val_main_v56 (F := Ideal) a0 a1 a2 a3 a4 a5
      = Gcn.dense (n := 50000) (k := 128) (q := 64) (val_main_v51 (F := Ideal) a0 a1 a2 a3) a4 a5 := by
  funext i
  obtain ⟨r, c, rfl⟩ : ∃ (r : Fin 50000) (c : Fin 64), i = ix2 r c := ⟨i 0, i 1, eq_ix2 i⟩
  rw [val_main_v56_apply, val_main_v53_apply, val_main_v55_apply, val_main_v54_apply, Gcn.dense_ix2, Ideal.addf_def]
  refine congrArg₂ (· + ·) (Finset.sum_congr rfl fun l _ => ?_)
    (congrArg a5 (funext fun a => Fin.ext (by match a with | ⟨0, _⟩ => rfl)))
  rw [val_main_v52_apply]
  exact congrArg₂ (· * ·)
    (congrArg (val_main_v51 (F := Ideal) a0 a1 a2 a3)
      (funext fun a => Fin.ext (by match a with | ⟨0, _⟩ => rfl | ⟨1, _⟩ => rfl)))
    (congrArg a4 (funext fun a => Fin.ext (by match a with | ⟨0, _⟩ => rfl | ⟨1, _⟩ => rfl)))

theorem v66_eq (a0 : A0) (a1 : A1) (a2 : A2) (a3 : A3) (a4 : A4) (a5 : A5) :
    val_main_v66 (F := Ideal) a0 a1 a2 a3 a4 a5
      = fun j => Gcn.edgeWeight gather_S50000_S850000x1_S850000_n_0_n_n_0_1_1 (disOf a1) (srcOf a1) (dstwOf a1)
            (ix1 ⟨(j 0).val, idx2_lt0 j⟩)
          * Host.gather gather_S50000x64_S850000x1_S850000x64_1_0_n_n_0_1_164
              (val_main_v56 (F := Ideal) a0 a1 a2 a3 a4 a5) (srcOf a1) j := by
  funext j
  beta_reduce
  rw [val_main_v66_apply, val_main_v65_apply, val_main_v57_apply, v32_eq, Ideal.mulf_def]
  unfold val_main_v64
  rw [v63_eq]
  exact congrArg₂ (· * ·)
    (congrArg _ (funext fun a => Fin.ext (by match a with | ⟨0, _⟩ => rfl))) rfl

theorem v67_eq : val_main_v67 (F := Ideal) = (Gcn.zeros : Arr 50000 64) := by
  funext i
  rw [val_main_v67_apply, val_main_cst_12_apply]
  rfl

theorem v69_eq (a0 : A0) (a1 : A1) (a2 : A2) (a3 : A3) (a4 : A4) (a5 : A5) :
    val_main_v69 (F := Ideal) a0 a1 a2 a3 a4 a5
      = Gcn.aggR gather_S50000_S850000x1_S850000_n_0_n_n_0_1_1 gather_S50000x64_S850000x1_S850000x64_1_0_n_n_0_1_164
          scatter_S50000x64_S850000x1_S850000x64_1_0_0_1 (disOf a1) (srcOf a1) (dstwOf a1) (dstOf a1)
          (val_main_v56 (F := Ideal) a0 a1 a2 a3 a4 a5) := by
  unfold val_main_v69 Host.scatterAdd Gcn.aggR
  rw [Ideal.hostScatterAdd_def, v67_eq, v66_eq, v68_eq]

/-! ## The logarithm of the softmax -/

theorem v70_eq (a0 : A0) (a1 : A1) (a2 : A2) (a3 : A3) (a4 : A4) (a5 : A5) :
    val_main_v70 (F := Ideal) a0 a1 a2 a3 a4 a5
      = rowMap logSoftmax (val_main_v69 (F := Ideal) a0 a1 a2 a3 a4 a5) := by
  unfold val_main_v70 val_main_call1_v10 val_main_call1_v9 val_main_call1_v8 val_main_call1_v7 val_main_call1_v6
    val_main_call1_v5 val_main_call1_v4 val_main_call1_v3 val_main_call1_v2 val_main_call1_v1 val_main_call1_v0
    val_main_call1_cst val_main_call1_cst_0 val_main_call1_cst_1
  generalize val_main_v69 (F := Ideal) a0 a1 a2 a3 a4 a5 = y
  exact GcnOps.logSoftmax_host (n := 50000) (k := 64) y reducesTo_S50000x64_S50000_d1 (by decide) h_S_ bcast_S_S50000
    bcast_S50000_S50000x1_0 bcast_S50000x1_S50000x64_0_1

/-! ## The result -/

theorem result_eq (a0 : A0) (a1 : A1) (a2 : A2) (a3 : A3) (a4 : A4) (a5 : A5) :
    val_main_v70 (F := Ideal) a0 a1 a2 a3 a4 a5
      = Gcn.netR gather_S50000_S850000x1_S850000_n_0_n_n_0_1_1
          gather_S50000x128_S850000x1_S850000x128_1_0_n_n_0_1_1128 scatter_S50000x128_S850000x1_S850000x128_1_0_0_1
          gather_S50000x64_S850000x1_S850000x64_1_0_n_n_0_1_164 scatter_S50000x64_S850000x1_S850000x64_1_0_0_1
          (disOf a1) (srcOf a1) (dstwOf a1) (dstOf a1) a0 a2 a3 a4 a5 := by
  rw [v70_eq, v69_eq, v56_eq, v51_eq, v50_eq]
  rfl

/-! ## The records' dimension numbers -/

theorem records :
    Gcn.IsVecGather gather_S50000_S850000x1_S850000_n_0_n_n_0_1_1
      ∧ Gcn.IsRowGather gather_S50000x128_S850000x1_S850000x128_1_0_n_n_0_1_1128
      ∧ Gcn.IsRowScatter scatter_S50000x128_S850000x1_S850000x128_1_0_0_1
      ∧ Gcn.IsRowGather gather_S50000x64_S850000x1_S850000x64_1_0_n_n_0_1_164
      ∧ Gcn.IsRowScatter scatter_S50000x64_S850000x1_S850000x64_1_0_0_1 := by
  unfold Gcn.IsVecGather Gcn.IsRowGather Gcn.IsRowScatter
  exact ⟨⟨rfl, rfl, rfl, rfl, rfl, rfl, rfl⟩, ⟨rfl, rfl, rfl, rfl, rfl, rfl, rfl⟩, ⟨rfl, rfl, rfl, rfl⟩,
    ⟨rfl, rfl, rfl, rfl, rfl, rfl, rfl⟩, ⟨rfl, rfl, rfl, rfl⟩⟩

/-! ## A target that is not negative is not moved -/

theorem dst_wrap (a1 : A1) (e : Fin 850000) :
    0 ≤ (dstOf a1 (ix2 e (0 : Fin 1))).toInt → dstwOf a1 (ix2 e (0 : Fin 1)) = dstOf a1 (ix2 e (0 : Fin 1)) := by
  intro h
  have e30 : idx_main_v30 (ix2 e (0 : Fin 1)) = ix1 e := funext fun a => Fin.ext (by match a with | ⟨0, _⟩ => rfl)
  have e49 : idx_main_v49 (ix2 e (0 : Fin 1)) = ix1 e := funext fun a => Fin.ext (by match a with | ⟨0, _⟩ => rfl)
  have hd : dstOf a1 (ix2 e (0 : Fin 1)) = val_main_v6 (F := Ideal) a1 (ix1 e) := by
    unfold dstOf; rw [val_main_v49_apply, e49]
  rw [hd] at h ⊢
  unfold dstwOf
  rw [val_main_v30_apply, e30, val_main_v29_apply, val_main_v26_apply, val_main_v25_apply, val_main_c_5_apply]
  have hlt : (val_main_v6 (F := Ideal) a1 (ix1 e)).slt 0#32 = false := by
    simp only [BitVec.slt, BitVec.toInt_zero, decide_eq_false_iff_not, Int.not_lt]
    exact h
  show (if BitVec.ofBool ((val_main_v6 (F := Ideal) a1 (ix1 e)).slt 0#32) = 1 then _ else _) = _
  rw [hlt]
  rfl

/-! ## The factors are real numbers -/

/-- A finite sum of real numbers is a real number. -/
theorem isReal_sum {ι : Type} (s : Finset ι) (f : ι → EReal) (h : ∀ j ∈ s, Gcn.IsReal (f j)) :
    Gcn.IsReal (∑ j ∈ s, f j) :=
  Finset.sum_induction f Gcn.IsReal
    (fun a b ⟨ra, ha⟩ ⟨rb, hb⟩ => ⟨ra + rb, by rw [ha, hb, EReal.coe_add]⟩) ⟨0, EReal.coe_zero.symm⟩ h

/-- An accumulating scatter of real numbers into real numbers gives real numbers. -/
theorem isReal_hostScatterAdd {s si su : Shape} (d : ScatterDims s si su) {w : Nat} (x : s.Idx → EReal)
    (idx : IVec si w) (upd : su.Idx → EReal) (hx : ∀ i, Gcn.IsReal (x i)) (hu : ∀ j, Gcn.IsReal (upd j)) (i : s.Idx) :
    Gcn.IsReal (Ideal.hostScatterAdd d x idx upd i) := by
  show Gcn.IsReal (x i + ∑ j ∈ Finset.univ.filter (fun j => d.resultIdx? j idx = some i), upd j)
  obtain ⟨r, hr⟩ := hx i
  obtain ⟨t, ht⟩ := isReal_sum (Finset.univ.filter (fun j => d.resultIdx? j idx = some i)) upd (fun j _ => hu j)
  exact ⟨r + t, by rw [hr, ht, EReal.coe_add]⟩

/-- The float word of minus one half. -/
theorem ofBits_neg_half_f32 : Ideal.ofBits .f32 0xBF000000#32 = ((-(1 / 2 : ℝ) : ℝ) : EReal) := by
  simp [Ideal.ofBits, Ideal.ieee, -EReal.coe_mul, -EReal.coe_neg]; norm_num

/-- The zeros the degree count starts from, and the ones it adds, are real numbers. -/
theorem v7_real (i : (⟨1, ![50000]⟩ : Shape).Idx) : Gcn.IsReal (val_main_v7 (F := Ideal) i) := by
  rw [val_main_v7_apply, val_main_cst_apply, Ideal.ofBits_def, Ideal.ofBits_zero_f32]
  exact ⟨0, EReal.coe_zero.symm⟩

theorem v14_real (j : (⟨1, ![850000]⟩ : Shape).Idx) : Gcn.IsReal (val_main_v14 (F := Ideal) j) := by
  rw [val_main_v14_apply, val_main_cst_1_apply, Ideal.ofBits_def, Ideal.ofBits_one_f32]
  exact ⟨1, EReal.coe_one.symm⟩

/-- The degree count is the accumulating scatter of the ones into the zeros, as a whole array. -/
theorem v15_eq (a1 : A1) :
    val_main_v15 (F := Ideal) a1
      = Ideal.hostScatterAdd scatter_S50000_S850000x1_S850000_n_0_0_1 (val_main_v7 (F := Ideal))
          (val_main_v13 (F := Ideal) a1) (val_main_v14 (F := Ideal)) := rfl

/-- A node's degree is zero plus a finite sum of ones: a real number. -/
theorem deg_real (a1 : A1) (i : (⟨1, ![50000]⟩ : Shape).Idx) : Gcn.IsReal (val_main_v15 (F := Ideal) a1 i) := by
  rw [v15_eq]
  exact isReal_hostScatterAdd scatter_S50000_S850000x1_S850000_n_0_0_1 (val_main_v7 (F := Ideal))
    (val_main_v13 (F := Ideal) a1) (val_main_v14 (F := Ideal)) v7_real v14_real i

/-- A real number to the power minus one half is a real number. -/
theorem dis_real (a1 : A1) (i : (⟨1, ![50000]⟩ : Shape).Idx) : Gcn.IsReal (disOf a1 i) := by
  unfold disOf
  rw [val_main_v17_apply, Ideal.hostPowf_def, val_main_v16_apply, val_main_cst_2_apply, Ideal.ofBits_def,
    ofBits_neg_half_f32]
  obtain ⟨r, hr⟩ := deg_real a1 i
  rw [hr]
  exact ⟨Real.rpow r (-(1 / 2 : ℝ)), rfl⟩

end Cert.ReferenceIdeal.RefNet

end
-- ==== Proof.FiniteArgs.lean ====
import proofs.«151475_j61306363183616_2_alg».proof.Pre_finite_inputs
import proofs.«151475_j61306363183616_2_alg».proof.Proof.GcnNet
import Idealize.ShloMosaic.Lib.ReduceAll
import Idealize.ShloMosaic.Lib.ValueIdx
import Idealize.ShloMosaic.PureOps.Ideal.Laws

/-
  From the finiteness precondition to "every entry of every float argument is a real number".

  The precondition is the conjunction, over the five float arguments x, of "for every index i, |x i| < +infinity",
  where each universal statement is a reduction by "and" over all axes of the entrywise comparison, and +infinity is
  the 32-bit pattern 0x7F800000.  On the extended reals |x| is max x (-x); this is +infinity at both infinities, so an
  entry whose absolute value is strictly below +infinity is neither of them, and is therefore a real number.
-/

noncomputable section

namespace Cert.FiniteArgs

open Idealize.ShloMosaic Cert.Pre_finite_inputs

/-- The shape with no axes has exactly one index. -/
instance subsingleton_scalar_idx : Subsingleton S_.Idx := ⟨fun a b => funext fun d => d.elim0⟩

/-- The pattern 0x7F800000 denotes +infinity. -/
theorem inf_bits : Ideal.ofBits .f32 0x7F800000#32 = (⊤ : EReal) := by simp [Ideal.ofBits, Ideal.ieee]

/-- An extended real whose absolute value max x (-x) is below +infinity is neither infinity: it is a real number. -/
theorem isReal_of_abs_lt_top (x : EReal) (h : max x (-x) < ⊤) : Gcn.IsReal x := by
  induction x using EReal.rec with
  | bot => exact absurd h (by simp)
  | coe r => exact ⟨r, rfl⟩
  | top => exact absurd h (by simp)

/-- A one-bit word made from a Boolean is 1 exactly when the Boolean is true. -/
theorem ofBool_eq_one (b : Bool) : BitVec.ofBool b = 1#1 ↔ b = true := by cases b <;> decide

/-- Where the entrywise test "|x| < +infinity" answers 1, the entry is a real number. -/
theorem real_of_cmp {s : Shape} (hb : S_.BroadcastsInDim s (![] : Fin 0 → Fin s.rank)) (x : FVec Ideal s .f32) (i : s.Idx)
    (h : cmpf .olt (Host.absf x) (broadcastInDim s ![] hb (constant S_ .f32 0x7F800000#32)) i = 1#1) :
    Gcn.IsReal (x i) := by
  have h' : Ideal.cmp .olt (max (x i) (-(x i))) (Ideal.ofBits .f32 0x7F800000#32) = 1#1 := h
  rw [inf_bits] at h'
  unfold Ideal.cmp at h'
  rw [ofBool_eq_one] at h'
  exact isReal_of_abs_lt_top (x i) (of_decide_eq_true h')

/-- Where the reduction by "and" over all axes of the entrywise test answers 1, every entry is a real number. -/
theorem all_real {s : Shape} {axes : List (Fin s.rank)} (hb : S_.BroadcastsInDim s (![] : Fin 0 → Fin s.rank))
    (hr : s.ReducesTo axes S_) (hu : 0 < S_.numel) (x : FVec Ideal s .f32) (init : IVec S_ 1) (j : S_.Idx)
    (h : Host.reduce IntOp.andi (cmpf .olt (Host.absf x) (broadcastInDim s ![] hb (constant S_ .f32 0x7F800000#32)))
      init hr hu j = 1#1) : ∀ i, Gcn.IsReal (x i) :=
  fun i => real_of_cmp hb x i (Host.reduce_andi_all _ init hr hu j h i)

/-- The precondition gives: every entry of each of the five float arguments is a real number. -/
theorem args_real [Cert.Pre_finite_inputs.Facts]
    (a0 : FVec Ideal Cert.Pre_finite_inputs.S50000x256 .f32) (a1 : IVec Cert.Pre_finite_inputs.S2x800000 32)
    (a2 : FVec Ideal Cert.Pre_finite_inputs.S128x256 .f32) (a3 : FVec Ideal Cert.Pre_finite_inputs.S128 .f32)
    (a4 : FVec Ideal Cert.Pre_finite_inputs.S64x128 .f32) (a5 : FVec Ideal Cert.Pre_finite_inputs.S64 .f32)
    (h : Cert.Pre_finite_inputs.fn (F := Ideal) a0 a1 a2 a3 a4 a5 = (fun _ => 1#1)) :
    (∀ i, Gcn.IsReal (a0 i)) ∧ (∀ i, Gcn.IsReal (a2 i)) ∧ (∀ i, Gcn.IsReal (a3 i)) ∧ (∀ i, Gcn.IsReal (a4 i))
      ∧ (∀ i, Gcn.IsReal (a5 i)) := by
  have h0 := congrFun h ValueIdx.ix0
  dsimp only [Cert.Pre_finite_inputs.fn, Cert.Pre_finite_inputs.fn_part1, andi] at h0
  obtain ⟨h1, e5⟩ := IntOp.andi_eq_one.1 h0
  obtain ⟨h2, e4⟩ := IntOp.andi_eq_one.1 h1
  obtain ⟨h3, e3⟩ := IntOp.andi_eq_one.1 h2
  obtain ⟨e0, e2⟩ := IntOp.andi_eq_one.1 h3
  exact ⟨all_real _ _ _ a0 _ _ e0, all_real _ _ _ a2 _ _ e2, all_real _ _ _ a3 _ _ e3, all_real _ _ _ a4 _ _ e4,
    all_real _ _ _ a5 _ _ e5⟩

end Cert.FiniteArgs

end
-- ==== Proof.LibEdgeOps.lean ====
/-
  Gathers of rows and of vector entries along a list of edges, and the accumulating scatter of rows, read at coordinates.

  A graph computation keeps one node number per edge in an m × 1 array of words.  Three of the host's indexed
  operations meet such an array:

    * the gather of rows: result row e is the operand's row whose number is the edge's word, read as a signed integer
      and clamped into the operand's range ("gather_rows_apply");
    * the gather of vector entries: result entry e is the operand's entry at that clamped number
      ("gather_vec_apply");
    * the scatter of rows: update entry (e, c) lands on operand entry (v, c') exactly when the edge's word, read as a
      signed integer and NOT clamped, is v and c' is c ("scatter_rows_resultIdx"); an edge whose word is negative or
      too large lands nowhere.

  Each statement takes the dimension numbers as an arbitrary record whose fields are the ones such an operation
  carries, so it applies to whichever record a program spells them with.
-/
import Idealize.ShloMosaic.Lib.ValueIdx
import Idealize.ShloMosaic.PureOps.Ideal.Laws

noncomputable section

open scoped BigOperators

namespace EdgeOps

open Idealize.ShloMosaic Idealize.ShloMosaic.ValueIdx

variable {α : Type} {n m q w : ℕ}

/-! ## The gather of rows -/

/-- The dimension numbers of "row idx[e] of an n × q array, for every edge e", as a literal record over given
    conditions. -/
abbrev rowDims (n m q : ℕ)
    (wf : GatherDims.WF ⟨2, ![n, q]⟩ ⟨2, ![m, 1]⟩ ⟨2, ![m, q]⟩ [1] [0] [] [0] [] 1 ![1, q]) :
    GatherDims ⟨2, ![n, q]⟩ ⟨2, ![m, 1]⟩ ⟨2, ![m, q]⟩ where
  offsetDims := [1]
  collapsedSliceDims := [0]
  operandBatchingDims := []
  startIndicesBatchingDims := []
  startIndexMap := [0]
  indexVectorDim := 1
  sliceSizes := ![1, q]
  wf := wf

theorem rowDims_apply (hn : 0 < n)
    (wf : GatherDims.WF ⟨2, ![n, q]⟩ ⟨2, ![m, 1]⟩ ⟨2, ![m, q]⟩ [1] [0] [] [0] [] 1 ![1, q])
    (x : (⟨2, ![n, q]⟩ : Shape).Idx → α) (idx : IVec (⟨2, ![m, 1]⟩ : Shape) w) (e : Fin m) (c : Fin q) :
    Host.gather (rowDims n m q wf) x idx (ix2 e c)
      = x (ix2 ⟨min (idx (ix2 e (0 : Fin 1))).toInt.toNat (n - 1), by omega⟩ c) := by
  unfold Host.gather
  congr 1
  funext a
  refine Fin.ext ?_
  match a with
  | ⟨0, _⟩ =>
    show (rowDims n m q wf).start (ix2 e c) idx 0 + (rowDims n m q wf).batchCoord (ix2 e c) 0
      + (rowDims n m q wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims n m q wf).startIndexMap from List.mem_singleton.mpr rfl)]
    have hsi : (rowDims n m q wf).siIdx (ix2 e c) ⟨List.idxOf (0 : Fin 2) (rowDims n m q wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims n m q wf).start (ix2 e c) idx 1 + (rowDims n m q wf).batchCoord (ix2 e c) 1
      + (rowDims n m q wf).offCoord (ix2 e c) 1 = c.val
    rw [GatherDims.batchCoord_eq_zero _ _ _ List.not_mem_nil]
    have hst : (rowDims n m q wf).start (ix2 e c) idx 1 = 0 := by
      unfold GatherDims.start
      rw [dif_neg (show (1 : Fin 2) ∉ ([0] : List (Fin 2)) by decide)]
    have hoff : (rowDims n m q wf).offCoord (ix2 e c) 1 = c.val := by
      unfold GatherDims.offCoord
      rw [dif_pos ((GatherDims.mem_sKept _ _).mpr
        ⟨(show (1 : Fin 2) ∉ ([0] : List (Fin 2)) by decide), List.not_mem_nil⟩)]
      rfl
    rw [hst, hoff, Nat.zero_add]

/-- THE GATHER OF ROWS READ AT (e, c): the operand at row "the edge's word, signed and clamped into [0, n − 1]",
    column c. -/
theorem gather_rows_apply
    (gd : GatherDims (⟨2, ![n, q]⟩ : Shape) (⟨2, ![m, 1]⟩ : Shape) (⟨2, ![m, q]⟩ : Shape))
    (ho : gd.offsetDims = [1]) (hc : gd.collapsedSliceDims = [0]) (hob : gd.operandBatchingDims = [])
    (hsb : gd.startIndicesBatchingDims = []) (hm : gd.startIndexMap = [0]) (hv : gd.indexVectorDim = 1)
    (hs : gd.sliceSizes = ![1, q]) (hn : 0 < n)
    (x : (⟨2, ![n, q]⟩ : Shape).Idx → α) (idx : IVec (⟨2, ![m, 1]⟩ : Shape) w) (e : Fin m) (c : Fin q) :
    Host.gather gd x idx (ix2 e c)
      = x (ix2 ⟨min (idx (ix2 e (0 : Fin 1))).toInt.toNat (n - 1), by omega⟩ c) := by
  obtain ⟨od, cs, ob, sb, sm, iv, ss, wf⟩ := gd
  dsimp only at ho hc hob hsb hm hv hs
  subst ho hc hob hsb hm hv hs
  exact rowDims_apply hn wf x idx e c

/-! ## The gather of vector entries -/

/-- The dimension numbers of "entry idx[e] of a vector of n, for every edge e", as a literal record over given
    conditions. -/
abbrev vecDims (n m : ℕ)
    (wf : GatherDims.WF ⟨1, ![n]⟩ ⟨2, ![m, 1]⟩ ⟨1, ![m]⟩ [] [0] [] [0] [] 1 ![1]) :
    GatherDims ⟨1, ![n]⟩ ⟨2, ![m, 1]⟩ ⟨1, ![m]⟩ where
  offsetDims := []
  collapsedSliceDims := [0]
  operandBatchingDims := []
  startIndicesBatchingDims := []
  startIndexMap := [0]
  indexVectorDim := 1
  sliceSizes := ![1]
  wf := wf

theorem vecDims_apply (hn : 0 < n)
    (wf : GatherDims.WF ⟨1, ![n]⟩ ⟨2, ![m, 1]⟩ ⟨1, ![m]⟩ [] [0] [] [0] [] 1 ![1])
    (x : (⟨1, ![n]⟩ : Shape).Idx → α) (idx : IVec (⟨2, ![m, 1]⟩ : Shape) w) (e : Fin m) :
    Host.gather (vecDims n m wf) x idx (ix1 e)
      = x (ix1 ⟨min (idx (ix2 e (0 : Fin 1))).toInt.toNat (n - 1), by omega⟩) := by
  unfold Host.gather
  congr 1
  funext a
  obtain rfl : a = 0 := Subsingleton.elim _ _
  refine Fin.ext ?_
  show (vecDims n m wf).start (ix1 e) idx 0 + (vecDims n m wf).batchCoord (ix1 e) 0
    + (vecDims n m wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims n m wf).startIndexMap from List.mem_singleton.mpr rfl)]
  have hsi : (vecDims n m wf).siIdx (ix1 e) ⟨List.idxOf (0 : Fin 1) (vecDims n m wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE GATHER OF VECTOR ENTRIES READ AT e: the operand at "the edge's word, signed and clamped into [0, n − 1]". -/
theorem gather_vec_apply
    (g1 : GatherDims (⟨1, ![n]⟩ : Shape) (⟨2, ![m, 1]⟩ : Shape) (⟨1, ![m]⟩ : Shape))
    (ho : g1.offsetDims = []) (hc : g1.collapsedSliceDims = [0]) (hob : g1.operandBatchingDims = [])
    (hsb : g1.startIndicesBatchingDims = []) (hm : g1.startIndexMap = [0]) (hv : g1.indexVectorDim = 1)
    (hs : g1.sliceSizes = ![1]) (hn : 0 < n)
    (x : (⟨1, ![n]⟩ : Shape).Idx → α) (idx : IVec (⟨2, ![m, 1]⟩ : Shape) w) (e : Fin m) :
    Host.gather g1 x idx (ix1 e)
      = x (ix1 ⟨min (idx (ix2 e (0 : Fin 1))).toInt.toNat (n - 1), by omega⟩) := by
  obtain ⟨od, cs, ob, sb, sm, iv, ss, wf⟩ := g1
  dsimp only at ho hc hob hsb hm hv hs
  subst ho hc hob hsb hm hv hs
  exact vecDims_apply hn wf x idx e

/-! ## The scatter of rows -/

/-- The dimension numbers of "add row e of an m × q array into row idx[e] of an n × q array", as a literal record over
    given conditions. -/
abbrev scatDims (n m q : ℕ)
    (wf : ScatterDims.WF ⟨2, ![n, q]⟩ ⟨2, ![m, 1]⟩ ⟨2, ![m, q]⟩ [1] [0] [0] 1) :
    ScatterDims ⟨2, ![n, q]⟩ ⟨2, ![m, 1]⟩ ⟨2, ![m, q]⟩ where
  updateWindowDims := [1]
  insertedWindowDims := [0]
  scatterDimsToOperandDims := [0]
  indexVectorDim := 1
  wf := wf

section Scatter
variable (wf : ScatterDims.WF ⟨2, ![n, q]⟩ ⟨2, ![m, 1]⟩ ⟨2, ![m, q]⟩ [1] [0] [0] 1)
  (idx : IVec (⟨2, ![m, 1]⟩ : Shape) w) (e : Fin m) (c : Fin q)

/-- On the row axis the window starts at the edge's word, read signed. -/
theorem scatDims_start0 :
    (scatDims n m q wf).start (ix2 e c) idx 0 = (idx (ix2 e (0 : Fin 1))).toInt := by
  unfold ScatterDims.start
  rw [dif_pos (show (0 : Fin 2) ∈ (scatDims n m q wf).scatterDimsToOperandDims from List.mem_singleton.mpr rfl)]
  have hsi : (scatDims n m q wf).siIdx (ix2 e c)
      ⟨List.idxOf (0 : Fin 2) (scatDims n m q wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0. -/
theorem scatDims_start1 : (scatDims n m q wf).start (ix2 e c) idx 1 = 0 := by
  unfold ScatterDims.start
  rw [dif_neg (show (1 : Fin 2) ∉ ([0] : List (Fin 2)) by decide)]

/-- The row axis is inserted: its window coordinate is 0. -/
theorem scatDims_window0 : (scatDims n m q wf).window (ix2 e c) 0 = 0 := by
  unfold ScatterDims.window
  have h0 : (0 : Fin 2) ∉ (scatDims n m q wf).sKept := by
    intro h
    have h2 := (List.mem_filter.mp h).2
    simp at h2
  rw [dif_neg h0]

/-- The column axis carries the update's column. -/
theorem scatDims_window1 : (scatDims n m q wf).window (ix2 e c) 1 = c.val := by
  unfold ScatterDims.window
  have h1 : (1 : Fin 2) ∈ (scatDims n m q wf).sKept :=
    List.mem_filter.mpr ⟨List.mem_finRange _, by simp⟩
  rw [dif_pos h1]
  rfl

theorem scatDims_resultIdx (i : (⟨2, ![n, q]⟩ : Shape).Idx) :
    (scatDims n m q wf).resultIdx? (ix2 e c) idx = some i
      ↔ (idx (ix2 e (0 : Fin 1))).toInt = ((i 0).val : ℤ) ∧ (i 1).val = c.val := by
  have hs0 := scatDims_start0 wf idx e c
  have hs1 := scatDims_start1 wf idx e c
  have hw0 := scatDims_window0 wf e c
  have hw1 := scatDims_window1 wf e c
  have hi0 : (i 0).val < n := idx2_lt0 i
  have hi1 : (i 1).val < q := idx2_lt1 i
  have hc : c.val < q := c.isLt
  unfold ScatterDims.resultIdx?
  split
  next h =>
    have g0 := h 0
    have g1 := h 1
    rw [hs0, hw0] at g0
    rw [hs1, hw1] at g1
    constructor
    · intro heq
      have hi := Option.some.inj heq
      have e0 : ((scatDims n m q wf).start (ix2 e c) idx 0
          + ((scatDims n m q wf).window (ix2 e c) 0 : ℕ)).toNat = (i 0).val := congrArg Fin.val (congrFun hi 0)
      have e1 : ((scatDims n m q wf).start (ix2 e c) idx 1
          + ((scatDims n m q wf).window (ix2 e c) 1 : ℕ)).toNat = (i 1).val := congrArg Fin.val (congrFun hi 1)
      rw [hs0, hw0] at e0
      rw [hs1, hw1] at e1
      generalize (idx (ix2 e (0 : Fin 1))).toInt = z at *
      omega
    · rintro ⟨h0, h1⟩
      refine congrArg some (funext fun a => Fin.ext ?_)
      match a with
      | ⟨0, _⟩ =>
        show ((scatDims n m q wf).start (ix2 e c) idx 0
          + ((scatDims n m q wf).window (ix2 e c) 0 : ℕ)).toNat = (i 0).val
        rw [hs0, hw0, h0]; omega
      | ⟨1, _⟩ =>
        show ((scatDims n m q wf).start (ix2 e c) idx 1
          + ((scatDims n m q wf).window (ix2 e c) 1 : ℕ)).toNat = (i 1).val
        rw [hs1, hw1, h1]; omega
  next h =>
    constructor
    · intro heq; exact absurd heq (by simp)
    · rintro ⟨h0, h1⟩
      exfalso
      apply h
      intro a
      match a with
      | ⟨0, _⟩ =>
        show 0 ≤ (scatDims n m q wf).start (ix2 e c) idx 0 + ((scatDims n m q wf).window (ix2 e c) 0 : ℕ)
          ∧ (scatDims n m q wf).start (ix2 e c) idx 0 + ((scatDims n m q wf).window (ix2 e c) 0 : ℕ) < ((n : ℕ) : ℤ)
        rw [hs0, hw0, h0]; omega
      | ⟨1, _⟩ =>
        show 0 ≤ (scatDims n m q wf).start (ix2 e c) idx 1 + ((scatDims n m q wf).window (ix2 e c) 1 : ℕ)
          ∧ (scatDims n m q wf).start (ix2 e c) idx 1 + ((scatDims n m q wf).window (ix2 e c) 1 : ℕ) < ((q : ℕ) : ℤ)
        rw [hs1, hw1]; omega

end Scatter

/-- THE SCATTER OF ROWS: update entry (e, c) lands on operand entry i exactly when the edge's word, read signed and not
    clamped, is i's row, and i's column is c. -/
theorem scatter_rows_resultIdx
    (sd : ScatterDims (⟨2, ![n, q]⟩ : Shape) (⟨2, ![m, 1]⟩ : Shape) (⟨2, ![m, q]⟩ : Shape))
    (hu : sd.updateWindowDims = [1]) (hi : sd.insertedWindowDims = [0]) (hd : sd.scatterDimsToOperandDims = [0])
    (hv : sd.indexVectorDim = 1)
    (idx : IVec (⟨2, ![m, 1]⟩ : Shape) w) (e : Fin m) (c : Fin q) (i : (⟨2, ![n, q]⟩ : Shape).Idx) :
    sd.resultIdx? (ix2 e c) idx = some i
      ↔ (idx (ix2 e (0 : Fin 1))).toInt = ((i 0).val : ℤ) ∧ (i 1).val = c.val := by
  obtain ⟨uw, iw, sdo, iv, wf⟩ := sd
  dsimp only at hu hi hd hv
  subst hu hi hd hv
  exact scatDims_resultIdx wf idx e c i

end EdgeOps

end
-- ==== Proof.LibGraphAgg.lean ====
/-
  One round of message passing on real data: the two arrangements agree, and so do the two networks.

  The first arrangement of a round multiplies every row by its node's factor, gathers the rows along the edges, adds up
  what arrives at every node and multiplies the sums by the node's factor.  The second gathers the rows, multiplies every
  message by the factor of its edge's source and by the factor of its edge's target, and adds up.  A message that lands
  on node v comes from an edge whose target word is v, so the target's factor on that edge is the factor of v; it is a
  real number, and a real factor moves inside a finite sum of real numbers.  That is the whole proof ("aggK_eq_aggR").

  For it every intermediate array has to consist of real numbers: real numbers are closed under the sums, products and
  maxima the layers take ("dense_real", "relu0_real", "aggR_real").  The network statement ("netK_eq_netR") chains the
  round twice.
-/
import proofs.«151475_j61306363183616_2_alg».proof.Proof.GcnNet
import proofs.«151475_j61306363183616_2_alg».proof.Proof.LibEdgeOps

noncomputable section

open scoped BigOperators

namespace Gcn

open Idealize.ShloMosaic Idealize.ShloMosaic.ValueIdx GcnSpec EdgeOps

variable {n m k q p : ℕ}

/-! ## Real numbers among the extended reals are closed under the layers' operations -/

theorem isReal_zero : IsReal 0 := ⟨0, EReal.coe_zero.symm⟩

theorem isReal_zeroF : IsReal zeroF := by rw [zeroF_eq]; exact isReal_zero

theorem IsReal.add {a b : EReal} (ha : IsReal a) (hb : IsReal b) : IsReal (a + b) := by
  obtain ⟨x, rfl⟩ := ha
  obtain ⟨y, rfl⟩ := hb
  exact ⟨x + y, (EReal.coe_add x y).symm⟩

theorem IsReal.mul {a b : EReal} (ha : IsReal a) (hb : IsReal b) : IsReal (a * b) := by
  obtain ⟨x, rfl⟩ := ha
  obtain ⟨y, rfl⟩ := hb
  exact ⟨x * y, (EReal.coe_mul x y).symm⟩

theorem IsReal.max {a b : EReal} (ha : IsReal a) (hb : IsReal b) : IsReal (max a b) := by
  rcases max_choice a b with h | h <;> rw [h] <;> assumption

/-- A finite sum of real numbers is a real number. -/
theorem isReal_sum {ι : Type*} (s : Finset ι) (f : ι → EReal) (hf : ∀ j ∈ s, IsReal (f j)) :
    IsReal (∑ j ∈ s, f j) :=
  Finset.sum_induction f IsReal (fun _ _ => IsReal.add) isReal_zero hf

/-- A real factor moves inside a finite sum of real numbers. -/
theorem real_mul_sum {ι : Type*} (s : Finset ι) (c : EReal) (f : ι → EReal) (hc : IsReal c)
    (hf : ∀ j ∈ s, IsReal (f j)) : c * ∑ j ∈ s, f j = ∑ j ∈ s, c * f j := by
  classical
  revert hf
  refine Finset.induction_on s (fun _ => by simp) ?_
  intro a t ha ih hf
  rw [Finset.sum_insert ha, Finset.sum_insert ha, ← ih (fun j hj => hf j (Finset.mem_insert_of_mem hj))]
  obtain ⟨r, rfl⟩ := hc
  obtain ⟨x, hx⟩ := hf a (Finset.mem_insert_self a t)
  obtain ⟨y, hy⟩ := isReal_sum t f (fun j hj => hf j (Finset.mem_insert_of_mem hj))
  rw [hx, hy, ← EReal.coe_add, ← EReal.coe_mul, ← EReal.coe_mul, ← EReal.coe_mul, ← EReal.coe_add, mul_add]

theorem dense_real (x : Arr n k) (w : Arr q k) (b : Vecr q) (hx : ∀ i, IsReal (x i)) (hw : ∀ i, IsReal (w i))
    (hb : ∀ i, IsReal (b i)) (i : (⟨2, ![n, q]⟩ : Shape).Idx) : IsReal (dense x w b i) :=
  IsReal.add (isReal_sum _ _ (fun _ _ => IsReal.mul (hx _) (hw _))) (hb _)

theorem relu0_real (a : Arr n k) (ha : ∀ i, IsReal (a i)) (i : (⟨2, ![n, k]⟩ : Shape).Idx) : IsReal (relu0 a i) :=
  IsReal.max (ha i) isReal_zeroF

theorem aggR_real (g1 : GatherDims (⟨1, ![n]⟩ : Shape) (⟨2, ![m, 1]⟩ : Shape) (⟨1, ![m]⟩ : Shape))
    (gd : GatherDims (⟨2, ![n, q]⟩ : Shape) (⟨2, ![m, 1]⟩ : Shape) (⟨2, ![m, q]⟩ : Shape))
    (sd : ScatterDims (⟨2, ![n, q]⟩ : Shape) (⟨2, ![m, 1]⟩ : Shape) (⟨2, ![m, q]⟩ : Shape))
    (d : Vecr n) (src dstw dst : Ends m) (h : Arr n q) (hd : ∀ i, IsReal (d i)) (hh : ∀ i, IsReal (h i))
    (i : (⟨2, ![n, q]⟩ : Shape).Idx) : IsReal (aggR g1 gd sd d src dstw dst h i) :=
  IsReal.add isReal_zeroF (isReal_sum _ _ (fun _ _ => IsReal.mul (IsReal.mul (hd _) (hd _)) (hh _)))

/-! ## The round -/

/-- THE ROUND: on real data the two arrangements agree.  At node v and column c both sides are a sum over the update
    entries (e, c') that land on (v, c).  Such an edge's target word is v (signed, so it is not negative and the gather
    takes the same word), hence the target's factor on it is the factor of v; that factor, a real number, moves inside
    the sum of real messages, and the products are rearranged. -/
theorem aggK_eq_aggR (g1 : GatherDims (⟨1, ![n]⟩ : Shape) (⟨2, ![m, 1]⟩ : Shape) (⟨1, ![m]⟩ : Shape))
    (gd : GatherDims (⟨2, ![n, q]⟩ : Shape) (⟨2, ![m, 1]⟩ : Shape) (⟨2, ![m, q]⟩ : Shape))
    (sd : ScatterDims (⟨2, ![n, q]⟩ : Shape) (⟨2, ![m, 1]⟩ : Shape) (⟨2, ![m, q]⟩ : Shape))
    (hg1 : IsVecGather g1) (hgd : IsRowGather gd) (hsd : IsRowScatter sd) (hn : 0 < n)
    (d : Vecr n) (src dstw dst : Ends m) (h : Arr n q) (hd : ∀ i, IsReal (d i)) (hh : ∀ i, IsReal (h i))
    (hw : ∀ e : Fin m, 0 ≤ (dst (ix2 e (0 : Fin 1))).toInt → dstw (ix2 e (0 : Fin 1)) = dst (ix2 e (0 : Fin 1))) :
    aggK gd sd d src dst h = aggR g1 gd sd d src dstw dst h := by
  obtain ⟨ho1, hc1, hob1, hsb1, hm1, hv1, hs1⟩ := hg1
  obtain ⟨ho, hc, hob, hsb, hm, hv, hs⟩ := hgd
  obtain ⟨hu, hi, hdd, hiv⟩ := hsd
  funext i
  obtain ⟨v, c, rfl⟩ : ∃ (v : Fin n) (c : Fin q), i = ix2 v c := ⟨i 0, i 1, eq_ix2 i⟩
  show d (ix1 v) * (zeroF + ∑ j ∈ Finset.univ.filter (fun j => sd.resultIdx? j dst = some (ix2 v c)),
        Host.gather gd (scaleRows d h) src j)
      = zeroF + ∑ j ∈ Finset.univ.filter (fun j => sd.resultIdx? j dst = some (ix2 v c)),
        edgeWeight g1 d src dstw (ix1 ⟨(j 0).val, idx2_lt0 j⟩) * Host.gather gd h src j
  rw [zeroF_eq, zero_add, zero_add,
    real_mul_sum _ (d (ix1 v)) (fun j => Host.gather gd (scaleRows d h) src j) (hd _)
      (fun j _ => (IsReal.mul (hd _) (hh _) : IsReal (scaleRows d h (gd.operandIdx j src))))]
  refine Finset.sum_congr rfl (fun j hj => ?_)
  obtain ⟨e, c', rfl⟩ : ∃ (e : Fin m) (c' : Fin q), j = ix2 e c' := ⟨j 0, j 1, eq_ix2 j⟩
  have hj' := (Finset.mem_filter.mp hj).2
  rw [scatter_rows_resultIdx sd hu hi hdd hiv dst e c' (ix2 v c)] at hj'
  have hv0 : (dst (ix2 e (0 : Fin 1))).toInt = (v.val : ℤ) := hj'.1
  have hdw : dstw (ix2 e (0 : Fin 1)) = dst (ix2 e (0 : Fin 1)) :=
    hw e (by rw [hv0]; exact Int.natCast_nonneg _)
  have ht : min (dstw (ix2 e (0 : Fin 1))).toInt.toNat (n - 1) = v.val := by
    rw [hdw, hv0]; have := v.isLt; omega
  rw [gather_rows_apply gd ho hc hob hsb hm hv hs hn (scaleRows d h) src e c', scaleRows_ix2,
    gather_rows_apply gd ho hc hob hsb hm hv hs hn h src e c']
  show _ = (Host.gather g1 d src (ix1 e) * Host.gather g1 d dstw (ix1 e)) * _
  rw [gather_vec_apply g1 ho1 hc1 hob1 hsb1 hm1 hv1 hs1 hn d src e,
    gather_vec_apply g1 ho1 hc1 hob1 hsb1 hm1 hv1 hs1 hn d dstw e]
  have hvv : (ix1 ⟨min (dstw (ix2 e (0 : Fin 1))).toInt.toNat (n - 1), by omega⟩ : (⟨1, ![n]⟩ : Shape).Idx) = ix1 v :=
    congrArg ix1 (Fin.ext ht)
  rw [hvv, mul_comm (d (ix1 _)) (d (ix1 v)), mul_assoc]

/-! ## The network -/

/-- THE NETWORK: the round is rewritten twice, every array it is applied to consisting of real numbers. -/
theorem netK_eq_netR (g1 : GatherDims (⟨1, ![n]⟩ : Shape) (⟨2, ![m, 1]⟩ : Shape) (⟨1, ![m]⟩ : Shape))
    (gdH : GatherDims (⟨2, ![n, p]⟩ : Shape) (⟨2, ![m, 1]⟩ : Shape) (⟨2, ![m, p]⟩ : Shape))
    (sdH : ScatterDims (⟨2, ![n, p]⟩ : Shape) (⟨2, ![m, 1]⟩ : Shape) (⟨2, ![m, p]⟩ : Shape))
    (gdO : GatherDims (⟨2, ![n, q]⟩ : Shape) (⟨2, ![m, 1]⟩ : Shape) (⟨2, ![m, q]⟩ : Shape))
    (sdO : ScatterDims (⟨2, ![n, q]⟩ : Shape) (⟨2, ![m, 1]⟩ : Shape) (⟨2, ![m, q]⟩ : Shape))
    (hg1 : IsVecGather g1) (hgdH : IsRowGather gdH) (hsdH : IsRowScatter sdH) (hgdO : IsRowGather gdO)
    (hsdO : IsRowScatter sdO) (hn : 0 < n)
    (d : Vecr n) (src dstw dst : Ends m) (x : Arr n k) (w1 : Arr p k) (b1 : Vecr p) (w2 : Arr q p) (b2 : Vecr q)
    (hd : ∀ i, IsReal (d i)) (hx : ∀ i, IsReal (x i)) (hw1 : ∀ i, IsReal (w1 i)) (hb1 : ∀ i, IsReal (b1 i))
    (hw2 : ∀ i, IsReal (w2 i)) (hb2 : ∀ i, IsReal (b2 i))
    (hw : ∀ e : Fin m, 0 ≤ (dst (ix2 e (0 : Fin 1))).toInt → dstw (ix2 e (0 : Fin 1)) = dst (ix2 e (0 : Fin 1))) :
    netK gdH sdH gdO sdO d src dst x w1 b1 w2 b2 = netR g1 gdH sdH gdO sdO d src dstw dst x w1 b1 w2 b2 := by
  unfold netK netR
  rw [aggK_eq_aggR g1 gdH sdH hg1 hgdH hsdH hn d src dstw dst (dense x w1 b1) hd
    (dense_real x w1 b1 hx hw1 hb1) hw]
  rw [aggK_eq_aggR g1 gdO sdO hg1 hgdO hsdO hn d src dstw dst _ hd
    (dense_real _ w2 b2 (relu0_real _ (aggR_real g1 gdH sdH d src dstw dst _ hd (dense_real x w1 b1 hx hw1 hb1)))
      hw2 hb2) hw]

end Gcn

end
-- ==== Proof.Bridge.lean ====
/-
  The two programs compute one function.

  Both programs build the edge ends and the node factors from the edge list by the same host operations, and use the
  same gather and scatter dimension numbers; the kernel program's terms and the reference's are the same terms.  The
  kernel program's result is the network in its first arrangement (factors applied to the rows before the gather and to
  the sums after the scatter), the reference's the second (every message weighted by the product of its two factors).
  With every float argument finite all entries are real numbers, a target that is not negative is not moved by the
  wrap, and the two arrangements agree.
-/
import proofs.«151475_j61306363183616_2_alg».proof.Proof.KernelValue
import proofs.«151475_j61306363183616_2_alg».proof.Proof.RefNet
import proofs.«151475_j61306363183616_2_alg».proof.Proof.LibGraphAgg

set_option maxRecDepth 16384

noncomputable section

namespace Cert.Proof.Bridge

open Idealize.ShloMosaic Idealize.ShloMosaic.ValueIdx GcnSpec Gcn

/-- The node factors: the two programs' terms are one. -/
theorem dis_eq (a1 : IVec Cert.KernelIdeal.S2x800000 32) : Cert.KernelIdeal.Walk.disK a1 = Cert.ReferenceIdeal.RefNet.disOf a1 := rfl
/-- The wrapped sources as a column. -/
theorem src_eq (a1 : IVec Cert.KernelIdeal.S2x800000 32) : Cert.KernelIdeal.Walk.srcK a1 = Cert.ReferenceIdeal.RefNet.srcOf a1 := rfl
/-- The targets as a column. -/
theorem dst_eq (a1 : IVec Cert.KernelIdeal.S2x800000 32) : Cert.KernelIdeal.Walk.dstK a1 = Cert.ReferenceIdeal.RefNet.dstOf a1 := rfl

/-- The kernel program's network, spelt with the reference's terms and dimension numbers. -/
theorem netK_terms (a0 : Arr 50000 256) (a1 : IVec Cert.KernelIdeal.S2x800000 32) (a2 : Arr 128 256) (a3 : Vecr 128) (a4 : Arr 64 128) (a5 : Vecr 64) :
    netK Cert.KernelIdeal.gather_S50000x128_S850000x1_S850000x128_1_0_n_n_0_1_1128 Cert.KernelIdeal.scatter_S50000x128_S850000x1_S850000x128_1_0_0_1
        Cert.KernelIdeal.gather_S50000x64_S850000x1_S850000x64_1_0_n_n_0_1_164 Cert.KernelIdeal.scatter_S50000x64_S850000x1_S850000x64_1_0_0_1
        (Cert.KernelIdeal.Walk.disK a1) (Cert.KernelIdeal.Walk.srcK a1) (Cert.KernelIdeal.Walk.dstK a1) a0 a2 a3 a4 a5
      = netK Cert.ReferenceIdeal.gather_S50000x128_S850000x1_S850000x128_1_0_n_n_0_1_1128 Cert.ReferenceIdeal.scatter_S50000x128_S850000x1_S850000x128_1_0_0_1
        Cert.ReferenceIdeal.gather_S50000x64_S850000x1_S850000x64_1_0_n_n_0_1_164 Cert.ReferenceIdeal.scatter_S50000x64_S850000x1_S850000x64_1_0_0_1
        (Cert.ReferenceIdeal.RefNet.disOf a1) (Cert.ReferenceIdeal.RefNet.srcOf a1) (Cert.ReferenceIdeal.RefNet.dstOf a1) a0 a2 a3 a4 a5 := by
  rw [dis_eq, src_eq, dst_eq]
  rfl

/-- The two arrangements of the network agree on real arguments. -/
theorem nets_eq (a0 : Arr 50000 256) (a1 : IVec Cert.KernelIdeal.S2x800000 32) (a2 : Arr 128 256) (a3 : Vecr 128) (a4 : Arr 64 128) (a5 : Vecr 64)
    (h0 : ∀ i, IsReal (a0 i)) (h2 : ∀ i, IsReal (a2 i)) (h3 : ∀ i, IsReal (a3 i)) (h4 : ∀ i, IsReal (a4 i)) (h5 : ∀ i, IsReal (a5 i)) :
    netK Cert.KernelIdeal.gather_S50000x128_S850000x1_S850000x128_1_0_n_n_0_1_1128 Cert.KernelIdeal.scatter_S50000x128_S850000x1_S850000x128_1_0_0_1
        Cert.KernelIdeal.gather_S50000x64_S850000x1_S850000x64_1_0_n_n_0_1_164 Cert.KernelIdeal.scatter_S50000x64_S850000x1_S850000x64_1_0_0_1
        (Cert.KernelIdeal.Walk.disK a1) (Cert.KernelIdeal.Walk.srcK a1) (Cert.KernelIdeal.Walk.dstK a1) a0 a2 a3 a4 a5
      = netR Cert.ReferenceIdeal.gather_S50000_S850000x1_S850000_n_0_n_n_0_1_1
        Cert.ReferenceIdeal.gather_S50000x128_S850000x1_S850000x128_1_0_n_n_0_1_1128 Cert.ReferenceIdeal.scatter_S50000x128_S850000x1_S850000x128_1_0_0_1
        Cert.ReferenceIdeal.gather_S50000x64_S850000x1_S850000x64_1_0_n_n_0_1_164 Cert.ReferenceIdeal.scatter_S50000x64_S850000x1_S850000x64_1_0_0_1
        (Cert.ReferenceIdeal.RefNet.disOf a1) (Cert.ReferenceIdeal.RefNet.srcOf a1) (Cert.ReferenceIdeal.RefNet.dstwOf a1) (Cert.ReferenceIdeal.RefNet.dstOf a1) a0 a2 a3 a4 a5 := by
  rw [netK_terms]
  obtain ⟨r1, r2, r3, r4, r5⟩ := Cert.ReferenceIdeal.RefNet.records
  exact netK_eq_netR _ _ _ _ _ r1 r2 r3 r4 r5 (by decide) _ _ _ _ _ _ _ _ _ (Cert.ReferenceIdeal.RefNet.dis_real a1) h0 h2 h3 h4 h5
    (Cert.ReferenceIdeal.RefNet.dst_wrap a1)

end Cert.Proof.Bridge

end
-- ==== Proof.lean ====
/-
  The certificate: a two-layer graph convolution computed by three tiled regions, against its plain reference.

  Both programs compute, for a graph with 50000 nodes and 850000 directed edges (the self loops among them): a dense
  layer, one round of message passing weighted by the inverse square roots of the degrees of both ends of every edge,
  the maximum with zero, a second dense layer, a second round, and the logarithm of the softmax of every row.  The kernel
  program applies the source's factor to the rows before the gather and the target's factor to the sums after the
  scatter; the reference multiplies every message by the product of the two factors.  For finite arguments everything is
  a real number and a real factor distributes over a finite sum, so the results are equal as extended reals.

  The three frames: the two programs with regions by their generated frame proofs; the reference by its run with the
  result dropped.  The idealization rewrote nothing, so "preserves" is trivial.
-/
import proofs.«151475_j61306363183616_2_alg».proof.Defs
import proofs.«151475_j61306363183616_2_alg».proof.Proof.Gen.Kernel
import proofs.«151475_j61306363183616_2_alg».proof.Proof.Gen.Kernel.Skeleton
import proofs.«151475_j61306363183616_2_alg».proof.Proof.Gen.Kernel.Launch
import proofs.«151475_j61306363183616_2_alg».proof.Proof.Gen.Kernel.Points
import proofs.«151475_j61306363183616_2_alg».proof.Proof.Gen.Kernel.Frame
import proofs.«151475_j61306363183616_2_alg».proof.Proof.Gen.KernelIdeal
import proofs.«151475_j61306363183616_2_alg».proof.Proof.Gen.KernelIdeal.Skeleton
import proofs.«151475_j61306363183616_2_alg».proof.Proof.Gen.KernelIdeal.Launch
import proofs.«151475_j61306363183616_2_alg».proof.Proof.Gen.KernelIdeal.Points
import proofs.«151475_j61306363183616_2_alg».proof.Proof.Gen.KernelIdeal.Frame
import proofs.«151475_j61306363183616_2_alg».proof.Proof.Gen.ReferenceIdeal
import proofs.«151475_j61306363183616_2_alg».proof.Proof.Gen.Pre_finite_inputs
import proofs.«151475_j61306363183616_2_alg».proof.Proof.KernelRun
import proofs.«151475_j61306363183616_2_alg».proof.Proof.KernelValue
import proofs.«151475_j61306363183616_2_alg».proof.Proof.RefRunQ
import proofs.«151475_j61306363183616_2_alg».proof.Proof.RefReadP
import proofs.«151475_j61306363183616_2_alg».proof.Proof.RefNet
import proofs.«151475_j61306363183616_2_alg».proof.Proof.FiniteArgs
import proofs.«151475_j61306363183616_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level program runs and leaves its arguments: the generated frame. -/
theorem frame_k : Cert.frame_Kernel :=
  fun m ρ _ => Cert.Kernel.Gen.frame m ρ

/-- The idealized program runs and leaves its arguments: the generated frame. -/
theorem frame_ki : Cert.frame_KernelIdeal :=
  fun m ρ _ => Cert.KernelIdeal.Gen.frame m ρ

/-- The reference runs and leaves its arguments: its run with the result dropped. -/
theorem frame_ri : Cert.frame_ReferenceIdeal :=
  fun m ρ _ => (θ_run Cert.ReferenceIdeal.defs _ _).mono (fun _ h c => (h c).2) (Cert.ReferenceIdeal.ValueP.run (F := Ideal) m ρ)

/-- From memories that agree on the arguments both programs end with the network's value of the arguments: the kernel
    program by its run read at the result buffer, the reference by its run read one operation at a time, the two
    arrangements of the network equal because the arguments are finite. -/
theorem algebraic : Cert.algebraic_KernelIdeal_ReferenceIdeal := by
  intro m ρ m' ρ' hpre hagree
  refine ⟨fun c => Gcn.netK Cert.KernelIdeal.gather_S50000x128_S850000x1_S850000x128_1_0_n_n_0_1_1128 Cert.KernelIdeal.scatter_S50000x128_S850000x1_S850000x128_1_0_0_1
      Cert.KernelIdeal.gather_S50000x64_S850000x1_S850000x64_1_0_n_n_0_1_164 Cert.KernelIdeal.scatter_S50000x64_S850000x1_S850000x64_1_0_0_1
      (Cert.KernelIdeal.Walk.disK (m ((c.tc : Thread Cert.KernelIdeal.nD Cert.KernelIdeal.τ).loc Cert.KernelIdeal.main_arg1)))
      (Cert.KernelIdeal.Walk.srcK (m ((c.tc : Thread Cert.KernelIdeal.nD Cert.KernelIdeal.τ).loc Cert.KernelIdeal.main_arg1)))
      (Cert.KernelIdeal.Walk.dstK (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Walk.kernel_value m ρ c), (h c).2⟩) (Cert.KernelIdeal.Gen.run_out m ρ)
  · refine (θ_run Cert.ReferenceIdeal.defs _ _).mono (fun r h c => ⟨(h c).1.trans ?_, (h c).2⟩)
      (Cert.ReferenceIdeal.ValueP.run (F := Ideal) m' ρ')
    obtain ⟨g0, g1, g2, g3, g4, g5⟩ := hagree c
    obtain ⟨h0, h2, h3, h4, h5⟩ := Cert.FiniteArgs.args_real _ _ _ _ _ _ (hpre c)
    rw [Cert.ReferenceIdeal.ReadP.val_main_v70_eq, g0, g1, g2, g3, g4, g5, Cert.ReferenceIdeal.RefNet.result_eq]
    exact (Cert.Proof.Bridge.nets_eq _ _ _ _ _ _ h0 h2 h3 h4 h5).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
